-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v70)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v70) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x117 : Shape := ⟨2, ![200000, 117]⟩
abbrev S2x600000 : Shape := ⟨2, ![2, 600000]⟩
abbrev S117x128 : Shape := ⟨2, ![117, 128]⟩
abbrev S128 : Shape := ⟨1, ![128]⟩
abbrev S3x128x128 : Shape := ⟨3, ![3, 128, 128]⟩
abbrev S3x128 : Shape := ⟨2, ![3, 128]⟩
abbrev S_ : Shape := ⟨0, ![]⟩

class Facts : Prop where
  bcast_S_S200000x117 : S_.BroadcastsInDim S200000x117 (![] : Fin 0 → Fin S200000x117.rank)
  reducesTo_S200000x117_S_d0_1 : S200000x117.ReducesTo [0, 1] S_
  h_S_ : 0 < S_.numel
  bcast_S_S117x128 : S_.BroadcastsInDim S117x128 (![] : Fin 0 → Fin S117x128.rank)
  reducesTo_S117x128_S_d0_1 : S117x128.ReducesTo [0, 1] S_
  bcast_S_S128 : S_.BroadcastsInDim S128 (![] : Fin 0 → Fin S128.rank)
  reducesTo_S128_S_d0 : S128.ReducesTo [0] S_
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_

variable [Facts]

def fn_part1 {F : FTy → Type} [FloatOps F] (main_arg5 : FVec F S3x128x128 .f32) (main_arg6 : FVec F S3x128 .f32) (main_v13 : IVec S_ 1) (main_v16 : IVec S3x128x128 1) : IVec S_ 1 :=
  let main_c_5 : IVec S_ 1 := constantI S_ 1 1#1
  let main_v17 : IVec S_ 1 := (fun x v => Host.reduce IntOp.andi x v reducesTo_S3x128x128_S_d0_1_2 h_S_) main_v16 main_c_5
  let main_v18 : IVec S_ 1 := andi main_v13 main_v17
  let main_v19 : FVec F S3x128x128 .f32 := Host.absf main_arg5
  let main_cst_6 : FVec F S_ .f32 := constant S_ .f32 0x7F800000#32
  let main_v20 : FVec F S3x128x128 .f32 := broadcastInDim S3x128x128 ![] bcast_S_S3x128x128 main_cst_6
  let main_v21 : IVec S3x128x128 1 := cmpf .olt main_v19 main_v20
  let main_c_7 : IVec S_ 1 := constantI S_ 1 1#1
  let main_v22 : IVec S_ 1 := (fun x v => Host.reduce IntOp.andi x v reducesTo_S3x128x128_S_d0_1_2 h_S_) main_v21 main_c_7
  let main_v23 : IVec S_ 1 := andi main_v18 main_v22
  let main_v24 : FVec F S3x128 .f32 := Host.absf main_arg6
  let main_cst_8 : FVec F S_ .f32 := constant S_ .f32 0x7F800000#32
  let main_v25 : FVec F S3x128 .f32 := broadcastInDim S3x128 ![] bcast_S_S3x128 main_cst_8
  let main_v26 : IVec S3x128 1 := cmpf .olt main_v24 main_v25
  let main_c_9 : IVec S_ 1 := constantI S_ 1 1#1
  let main_v27 : IVec S_ 1 := (fun x v => Host.reduce IntOp.andi x v reducesTo_S3x128_S_d0_1 h_S_) main_v26 main_c_9
  let main_v28 : IVec S_ 1 := andi main_v23 main_v27
  main_v28

def fn {F : FTy → Type} [FloatOps F] (main_arg0 : FVec F S200000x117 .f32) (main_arg1 : IVec S2x600000 32) (main_arg2 : FVec F S117x128 .f32) (main_arg3 : FVec F S128 .f32) (main_arg4 : FVec F S3x128x128 .f32) (main_arg5 : FVec F S3x128x128 .f32) (main_arg6 : FVec F S3x128 .f32) : IVec S_ 1 :=
  let main_v0 : FVec F S200000x117 .f32 := Host.absf main_arg0
  let main_cst : FVec F S_ .f32 := constant S_ .f32 0x7F800000#32
  let main_v1 : FVec F S200000x117 .f32 := broadcastInDim S200000x117 ![] bcast_S_S200000x117 main_cst
  let main_v2 : IVec S200000x117 1 := cmpf .olt main_v0 main_v1
  let main_c : IVec S_ 1 := constantI S_ 1 1#1
  let main_v3 : IVec S_ 1 := (fun x v => Host.reduce IntOp.andi x v reducesTo_S200000x117_S_d0_1 h_S_) main_v2 main_c
  let main_v4 : FVec F S117x128 .f32 := Host.absf main_arg2
  let main_cst_0 : FVec F S_ .f32 := constant S_ .f32 0x7F800000#32
  let main_v5 : FVec F S117x128 .f32 := broadcastInDim S117x128 ![] bcast_S_S117x128 main_cst_0
  let main_v6 : IVec S117x128 1 := cmpf .olt main_v4 main_v5
  let main_c_1 : IVec S_ 1 := constantI S_ 1 1#1
  let main_v7 : IVec S_ 1 := (fun x v => Host.reduce IntOp.andi x v reducesTo_S117x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S3x128x128 .f32 := Host.absf main_arg4
  let main_cst_4 : FVec F S_ .f32 := constant S_ .f32 0x7F800000#32
  let main_v15 : FVec F S3x128x128 .f32 := broadcastInDim S3x128x128 ![] bcast_S_S3x128x128 main_cst_4
  let main_v16 : IVec S3x128x128 1 := cmpf .olt main_v14 main_v15
  fn_part1 (F := F) main_arg5 main_arg6 main_v13 main_v16
-- ==== Kernel.lean ====
abbrev S200000x117 : Shape := ⟨2, ![200000, 117]⟩
abbrev S2x600000 : Shape := ⟨2, ![2, 600000]⟩
abbrev S117x128 : Shape := ⟨2, ![117, 128]⟩
abbrev S128 : Shape := ⟨1, ![128]⟩
abbrev S3x128x128 : Shape := ⟨3, ![3, 128, 128]⟩
abbrev S3x128 : Shape := ⟨2, ![3, 128]⟩
abbrev S1x600000 : Shape := ⟨2, ![1, 600000]⟩
abbrev S600000 : Shape := ⟨1, ![600000]⟩
abbrev S_ : Shape := ⟨0, ![]⟩
abbrev S200000 : Shape := ⟨1, ![200000]⟩
abbrev S600000x1 : Shape := ⟨2, ![600000, 1]⟩
abbrev S200000x1 : Shape := ⟨2, ![200000, 1]⟩
abbrev S200000x128 : Shape := ⟨2, ![200000, 128]⟩
abbrev S128x128 : Shape := ⟨2, ![128, 128]⟩
abbrev S1x128 : Shape := ⟨2, ![1, 128]⟩
abbrev S8000x128 : Shape := ⟨2, ![8000, 128]⟩
abbrev S600000x128 : Shape := ⟨2, ![600000, 128]⟩
abbrev S1x128x128 : Shape := ⟨3, ![1, 128, 128]⟩
abbrev S8000x1 : Shape := ⟨2, ![8000, 1]⟩

abbrev nBuf : Space → Nat
  | .hbm => 95
  | .vmem => 39
  | .smem => 0
  | _ => 0

abbrev bufTy : (tb : Table) → Fin (tcTables nBuf tb) → BufTy
  | .hbm, ⟨0, _⟩ => ⟨S200000x117, .f32⟩
  | .hbm, ⟨1, _⟩ => ⟨S2x600000, .i32⟩
  | .hbm, ⟨2, _⟩ => ⟨S117x128, .f32⟩
  | .hbm, ⟨3, _⟩ => ⟨S128, .f32⟩
  | .hbm, ⟨4, _⟩ => ⟨S3x128x128, .f32⟩
  | .hbm, ⟨5, _⟩ => ⟨S3x128x128, .f32⟩
  | .hbm, ⟨6, _⟩ => ⟨S3x128, .f32⟩
  | .hbm, ⟨7, _⟩ => ⟨S1x600000, .i32⟩
  | .hbm, ⟨8, _⟩ => ⟨S600000, .i32⟩
  | .hbm, ⟨9, _⟩ => ⟨S1x600000, .i32⟩
  | .hbm, ⟨10, _⟩ => ⟨S600000, .i32⟩
  | .hbm, ⟨11, _⟩ => ⟨S_, .f32⟩
  | .hbm, ⟨12, _⟩ => ⟨S600000, .f32⟩
  | .hbm, ⟨13, _⟩ => ⟨S_, .f32⟩
  | .hbm, ⟨14, _⟩ => ⟨S200000, .f32⟩
  | .hbm, ⟨15, _⟩ => ⟨S600000x1, .i32⟩
  | .hbm, ⟨16, _⟩ => ⟨S200000, .f32⟩
  | .hbm, ⟨17, _⟩ => ⟨S_, .f32⟩
  | .hbm, ⟨18, _⟩ => ⟨S200000, .f32⟩
  | .hbm, ⟨19, _⟩ => ⟨S200000, .f32⟩
  | .hbm, ⟨20, _⟩ => ⟨S_, .f32⟩
  | .hbm, ⟨21, _⟩ => ⟨S200000, .f32⟩
  | .hbm, ⟨22, _⟩ => ⟨S200000, .f32⟩
  | .hbm, ⟨23, _⟩ => ⟨S200000x1, .f32⟩
  | .hbm, ⟨24, _⟩ => ⟨S_, .i32⟩
  | .hbm, ⟨25, _⟩ => ⟨S_, .f32⟩
  | .hbm, ⟨26, _⟩ => ⟨S200000x128, .f32⟩
  | .hbm, ⟨27, _⟩ => ⟨S_, .i32⟩
  | .hbm, ⟨28, _⟩ => ⟨S_, .f32⟩
  | .hbm, ⟨29, _⟩ => ⟨S128x128, .f32⟩
  | .hbm, ⟨30, _⟩ => ⟨S1x128, .f32⟩
  | .hbm, ⟨31, _⟩ => ⟨S200000x128, .f32⟩
  | .hbm, ⟨32, _⟩ => ⟨S_, .i32⟩
  | .hbm, ⟨33, _⟩ => ⟨S600000, .i32⟩
  | .hbm, ⟨34, _⟩ => ⟨S600000, .i1⟩
  | .hbm, ⟨35, _⟩ => ⟨S_, .i32⟩
  | .hbm, ⟨36, _⟩ => ⟨S600000, .i32⟩
  | .hbm, ⟨37, _⟩ => ⟨S600000, .i32⟩
  | .hbm, ⟨38, _⟩ => ⟨S600000, .i32⟩
  | .hbm, ⟨39, _⟩ => ⟨S600000x1, .i32⟩
  | .hbm, ⟨40, _⟩ => ⟨S600000x128, .f32⟩
  | .hbm, ⟨41, _⟩ => ⟨S_, .f32⟩
  | .hbm, ⟨42, _⟩ => ⟨S200000x128, .f32⟩
  | .hbm, ⟨43, _⟩ => ⟨S600000x1, .i32⟩
  | .hbm, ⟨44, _⟩ => ⟨S200000x128, .f32⟩
  | .hbm, ⟨45, _⟩ => ⟨S1x128x128, .f32⟩
  | .hbm, ⟨46, _⟩ => ⟨S128x128, .f32⟩
  | .hbm, ⟨47, _⟩ => ⟨S1x128x128, .f32⟩
  | .hbm, ⟨48, _⟩ => ⟨S128x128, .f32⟩
  | .hbm, ⟨49, _⟩ => ⟨S1x128, .f32⟩
  | .hbm, ⟨50, _⟩ => ⟨S128, .f32⟩
  | .hbm, ⟨51, _⟩ => ⟨S1x128, .f32⟩
  | .hbm, ⟨52, _⟩ => ⟨S200000x128, .f32⟩
  | .hbm, ⟨53, _⟩ => ⟨S_, .i32⟩
  | .hbm, ⟨54, _⟩ => ⟨S600000, .i32⟩
  | .hbm, ⟨55, _⟩ => ⟨S600000, .i1⟩
  | .hbm, ⟨56, _⟩ => ⟨S_, .i32⟩
  | .hbm, ⟨57, _⟩ => ⟨S600000, .i32⟩
  | .hbm, ⟨58, _⟩ => ⟨S600000, .i32⟩
  | .hbm, ⟨59, _⟩ => ⟨S600000, .i32⟩
  | .hbm, ⟨60, _⟩ => ⟨S600000x1, .i32⟩
  | .hbm, ⟨61, _⟩ => ⟨S600000x128, .f32⟩
  | .hbm, ⟨62, _⟩ => ⟨S_, .f32⟩
  | .hbm, ⟨63, _⟩ => ⟨S200000x128, .f32⟩
  | .hbm, ⟨64, _⟩ => ⟨S600000x1, .i32⟩
  | .hbm, ⟨65, _⟩ => ⟨S200000x128, .f32⟩
  | .hbm, ⟨66, _⟩ => ⟨S1x128x128, .f32⟩
  | .hbm, ⟨67, _⟩ => ⟨S128x128, .f32⟩
  | .hbm, ⟨68, _⟩ => ⟨S1x128x128, .f32⟩
  | .hbm, ⟨69, _⟩ => ⟨S128x128, .f32⟩
  | .hbm, ⟨70, _⟩ => ⟨S1x128, .f32⟩
  | .hbm, ⟨71, _⟩ => ⟨S128, .f32⟩
  | .hbm, ⟨72, _⟩ => ⟨S1x128, .f32⟩
  | .hbm, ⟨73, _⟩ => ⟨S200000x128, .f32⟩
  | .hbm, ⟨74, _⟩ => ⟨S_, .i32⟩
  | .hbm, ⟨75, _⟩ => ⟨S600000, .i32⟩
  | .hbm, ⟨76, _⟩ => ⟨S600000, .i1⟩
  | .hbm, ⟨77, _⟩ => ⟨S_, .i32⟩
  | .hbm, ⟨78, _⟩ => ⟨S600000, .i32⟩
  | .hbm, ⟨79, _⟩ => ⟨S600000, .i32⟩
  | .hbm, ⟨80, _⟩ => ⟨S600000, .i32⟩
  | .hbm, ⟨81, _⟩ => ⟨S600000x1, .i32⟩
  | .hbm, ⟨82, _⟩ => ⟨S600000x128, .f32⟩
  | .hbm, ⟨83, _⟩ => ⟨S_, .f32⟩
  | .hbm, ⟨84, _⟩ => ⟨S200000x128, .f32⟩
  | .hbm, ⟨85, _⟩ => ⟨S600000x1, .i32⟩
  | .hbm, ⟨86, _⟩ => ⟨S200000x128, .f32⟩
  | .hbm, ⟨87, _⟩ => ⟨S1x128x128, .f32⟩
  | .hbm, ⟨88, _⟩ => ⟨S128x128, .f32⟩
  | .hbm, ⟨89, _⟩ => ⟨S1x128x128, .f32⟩
  | .hbm, ⟨90, _⟩ => ⟨S128x128, .f32⟩
  | .hbm, ⟨91, _⟩ => ⟨S1x128, .f32⟩
  | .hbm, ⟨92, _⟩ => ⟨S128, .f32⟩
  | .hbm, ⟨93, _⟩ => ⟨S1x128, .f32⟩
  | .hbm, ⟨94, _⟩ => ⟨S200000x128, .f32⟩
  | .local _ .vmem, ⟨0, _⟩ => ⟨S8000x128, .f32⟩
  | .local _ .vmem, ⟨1, _⟩ => ⟨S8000x128, .f32⟩
  | .local _ .vmem, ⟨2, _⟩ => ⟨S128x128, .f32⟩
  | .local _ .vmem, ⟨3, _⟩ => ⟨S1x128, .f32⟩
  | .local _ .vmem, ⟨4, _⟩ => ⟨S8000x128, .f32⟩
  | .local _ .vmem, ⟨5, _⟩ => ⟨S8000x128, .f32⟩
  | .local _ .vmem, ⟨6, _⟩ => ⟨S8000x128, .f32⟩
  | .local _ .vmem, ⟨7, _⟩ => ⟨S8000x128, .f32⟩
  | .local _ .vmem, ⟨8, _⟩ => ⟨S8000x128, .f32⟩
  | .local _ .vmem, ⟨9, _⟩ => ⟨S8000x128, .f32⟩
  | .local _ .vmem, ⟨10, _⟩ => ⟨S8000x1, .f32⟩
  | .local _ .vmem, ⟨11, _⟩ => ⟨S8000x1, .f32⟩
  | .local _ .vmem, ⟨12, _⟩ => ⟨S128x128, .f32⟩
  | .local _ .vmem, ⟨13, _⟩ => ⟨S128x128, .f32⟩
  | .local _ .vmem, ⟨14, _⟩ => ⟨S1x128, .f32⟩
  | .local _ .vmem, ⟨15, _⟩ => ⟨S8000x128, .f32⟩
  | .local _ .vmem, ⟨16, _⟩ => ⟨S8000x128, .f32⟩
  | .local _ .vmem, ⟨17, _⟩ => ⟨S8000x128, .f32⟩
  | .local _ .vmem, ⟨18, _⟩ => ⟨S8000x128, .f32⟩
  | .local _ .vmem, ⟨19, _⟩ => ⟨S8000x128, .f32⟩
  | .local _ .vmem, ⟨20, _⟩ => ⟨S8000x128, .f32⟩
  | .local _ .vmem, ⟨21, _⟩ => ⟨S8000x1, .f32⟩
  | .local _ .vmem, ⟨22, _⟩ => ⟨S8000x1, .f32⟩
  | .local _ .vmem, ⟨23, _⟩ => ⟨S128x128, .f32⟩
  | .local _ .vmem, ⟨24, _⟩ => ⟨S128x128, .f32⟩
  | .local _ .vmem, ⟨25, _⟩ => ⟨S1x128, .f32⟩
  | .local _ .vmem, ⟨26, _⟩ => ⟨S8000x128, .f32⟩
  | .local _ .vmem, ⟨27, _⟩ => ⟨S8000x128, .f32⟩
  | .local _ .vmem, ⟨28, _⟩ => ⟨S8000x128, .f32⟩
  | .local _ .vmem, ⟨29, _⟩ => ⟨S8000x128, .f32⟩
  | .local _ .vmem, ⟨30, _⟩ => ⟨S8000x128, .f32⟩
  | .local _ .vmem, ⟨31, _⟩ => ⟨S8000x128, .f32⟩
  | .local _ .vmem, ⟨32, _⟩ => ⟨S8000x1, .f32⟩
  | .local _ .vmem, ⟨33, _⟩ => ⟨S8000x1, .f32⟩
  | .local _ .vmem, ⟨34, _⟩ => ⟨S128x128, .f32⟩
  | .local _ .vmem, ⟨35, _⟩ => ⟨S128x128, .f32⟩
  | .local _ .vmem, ⟨36, _⟩ => ⟨S1x128, .f32⟩
  | .local _ .vmem, ⟨37, _⟩ => ⟨S8000x128, .f32⟩
  | .local _ .vmem, ⟨38, _⟩ => ⟨S8000x128, .f32⟩
  | _, _ => ⟨S200000x117, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_c : Ref sig .tc := ⟨.hbm, 24, rfl⟩
abbrev main_call0_v0 : Ref sig .tc := ⟨.hbm, 25, rfl⟩
abbrev main_v13 : Ref sig .tc := ⟨.hbm, 26, rfl⟩
abbrev main_c_3 : Ref sig .tc := ⟨.hbm, 27, rfl⟩
abbrev main_call1_v0 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_c_4 : Ref sig .tc := ⟨.hbm, 32, rfl⟩
abbrev main_v17 : Ref sig .tc := ⟨.hbm, 33, rfl⟩
abbrev main_v18 : Ref sig .tc := ⟨.hbm, 34, rfl⟩
abbrev main_c_5 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_6 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_c_7 : Ref sig .tc := ⟨.hbm, 53, rfl⟩
abbrev main_v35 : Ref sig .tc := ⟨.hbm, 54, rfl⟩
abbrev main_v36 : Ref sig .tc := ⟨.hbm, 55, rfl⟩
abbrev main_c_8 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_9 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_c_10 : Ref sig .tc := ⟨.hbm, 74, rfl⟩
abbrev main_v53 : Ref sig .tc := ⟨.hbm, 75, rfl⟩
abbrev main_v54 : Ref sig .tc := ⟨.hbm, 76, rfl⟩
abbrev main_c_11 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_12 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg6_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg2_1 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg6_0 : Ref sig .tc := ⟨.vmem, 26, rfl⟩
abbrev cc2_stg6_1 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg1_1 : Ref sig .tc := ⟨.vmem, 31, rfl⟩
abbrev cc3_stg2_0 : Ref sig .tc := ⟨.vmem, 32, rfl⟩
abbrev cc3_stg2_1 : Ref sig .tc := ⟨.vmem, 33, rfl⟩
abbrev cc3_stg3_0 : Ref sig .tc := ⟨.vmem, 34, rfl⟩
abbrev cc3_stg4_0 : Ref sig .tc := ⟨.vmem, 35, rfl⟩
abbrev cc3_stg5_0 : Ref sig .tc := ⟨.vmem, 36, rfl⟩
abbrev cc3_stg6_0 : Ref sig .tc := ⟨.vmem, 37, rfl⟩
abbrev cc3_stg6_1 : Ref sig .tc := ⟨.vmem, 38, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem6_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem2_1 : DmaSem sig := 22
abbrev cc2_sem3_0 : DmaSem sig := 23
abbrev cc2_sem4_0 : DmaSem sig := 24
abbrev cc2_sem5_0 : DmaSem sig := 25
abbrev cc2_sem6_0 : DmaSem sig := 26
abbrev cc2_sem6_1 : DmaSem sig := 27
abbrev cc3_sem0_0 : DmaSem sig := 28
abbrev cc3_sem0_1 : DmaSem sig := 29
abbrev cc3_sem1_0 : DmaSem sig := 30
abbrev cc3_sem1_1 : DmaSem sig := 31
abbrev cc3_sem2_0 : DmaSem sig := 32
abbrev cc3_sem2_1 : DmaSem sig := 33
abbrev cc3_sem3_0 : DmaSem sig := 34
abbrev cc3_sem4_0 : DmaSem sig := 35
abbrev cc3_sem5_0 : DmaSem sig := 36
abbrev cc3_sem6_0 : DmaSem sig := 37
abbrev cc3_sem6_1 : DmaSem sig := 38

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S8000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S8000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S8000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S8000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S8000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S8000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S8000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S_S200000 : S_.BroadcastsInDim S200000 (![] : Fin 0 → Fin S200000.rank)
  bcast_S600000_S600000x1_0 : S600000.BroadcastsInDim S600000x1 (![0] : Fin 1 → Fin S600000x1.rank)
  shapeCasts_S200000_S200000x1 : S200000.ShapeCasts S200000x1
  pads_S200000x117_S200000x128_000_0110 : S200000x117.Pads (![0, 0] : Fin 2 → Nat) ![0, 11] ![0, 0] S200000x128
  h_S_ : 0 < S_.numel
  pads_S117x128_S128x128_0110_000 : S117x128.Pads (![0, 0] : Fin 2 → Nat) ![11, 0] ![0, 0] S128x128
  shapeCasts_S128_S1x128 : S128.ShapeCasts S1x128
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8000x128 : S1x128.Broadcasts S8000x128
  bcast_S_S200000x128 : S_.BroadcastsInDim S200000x128 (![] : Fin 0 → Fin S200000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  inb_S8000x1_S8000x1_0_0 : ∀ a, (![0, 0] : Fin 2 → Nat) a + S8000x1.size a ≤ S8000x1.size a
  h_S8000x1 : 0 < S8000x1.numel
  shapeCasts_S8000x1_S8000x1 : S8000x1.ShapeCasts S8000x1
  broadcasts_S8000x1_S8000x128 : S8000x1.Broadcasts S8000x128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  scatter_S200000_S600000x1_S600000_n_0_0_1_wf : ScatterDims.WF S200000 S600000x1 S600000 [] [0] [0] 1
  dot_S8000x128_S128x128_S8000x128_1_0_0_1_n_n_wf : DotDims.WF S8000x128 S128x128 S8000x128 [1] [0] [0] [1] [] []
  gather_S200000x128_S600000x1_S600000x128_1_0_n_n_0_1_1128_wf : GatherDims.WF S200000x128 S600000x1 S600000x128 [1] [0] [] [0] [] 1 ![1, 128]
  scatter_S200000x128_S600000x1_S600000x128_1_0_0_1_wf : ScatterDims.WF S200000x128 S600000x1 S600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x128.size a ≤ S200000x128.size a
  hwx0_0 : ∀ i : grid0.Coords, EltTy.bits .f32 = 32 ∨ (Rect.block (s := S200000x128) S8000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8000x128.size a ≤ S200000x128.size a
  hwx0_3 : ∀ i : grid0.Coords, EltTy.bits .f32 = 32 ∨ (Rect.block (s := S200000x128) S8000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x128.size a ≤ S200000x128.size a
  hwx1_0 : ∀ i : grid1.Coords, EltTy.bits .f32 = 32 ∨ (Rect.block (s := S200000x128) S8000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8000x128.size a ≤ S200000x128.size a
  hwx1_1 : ∀ i : grid1.Coords, EltTy.bits .f32 = 32 ∨ (Rect.block (s := S200000x128) S8000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8000x1.size a ≤ S200000x1.size a
  hwx1_2 : ∀ i : grid1.Coords, EltTy.bits .f32 = 32 ∨ (Rect.block (s := S200000x1) S8000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S8000x128.size a ≤ S200000x128.size a
  hwx1_6 : ∀ i : grid1.Coords, EltTy.bits .f32 = 32 ∨ (Rect.block (s := S200000x128) S8000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8000x128.size a ≤ S200000x128.size a
  hwx2_0 : ∀ i : grid2.Coords, EltTy.bits .f32 = 32 ∨ (Rect.block (s := S200000x128) S8000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S8000x128.size a ≤ S200000x128.size a
  hwx2_1 : ∀ i : grid2.Coords, EltTy.bits .f32 = 32 ∨ (Rect.block (s := S200000x128) S8000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S8000x1.size a ≤ S200000x1.size a
  hwx2_2 : ∀ i : grid2.Coords, EltTy.bits .f32 = 32 ∨ (Rect.block (s := S200000x1) S8000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S8000x128.size a ≤ S200000x128.size a
  hwx2_6 : ∀ i : grid2.Coords, EltTy.bits .f32 = 32 ∨ (Rect.block (s := S200000x128) S8000x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S8000x128.size a ≤ S200000x128.size a
  hwx3_0 : ∀ i : grid3.Coords, EltTy.bits .f32 = 32 ∨ (Rect.block (s := S200000x128) S8000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S8000x128.size a ≤ S200000x128.size a
  hwx3_1 : ∀ i : grid3.Coords, EltTy.bits .f32 = 32 ∨ (Rect.block (s := S200000x128) S8000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S8000x1.size a ≤ S200000x1.size a
  hwx3_2 : ∀ i : grid3.Coords, EltTy.bits .f32 = 32 ∨ (Rect.block (s := S200000x1) S8000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .f32 = 32 ∨ (Rect.block (s := S128x128) S128x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S8000x128.size a ≤ S200000x128.size a
  hwx3_6 : ∀ i : grid3.Coords, EltTy.bits .f32 = 32 ∨ (Rect.block (s := S200000x128) S8000x128.size (cc3_transform_6 i) (hinb3_6 i)).WholeWords (EltTy.packing .f32)

variable [Facts₀]

def scatter_S200000_S600000x1_S600000_n_0_0_1 : ScatterDims S200000 S600000x1 S600000 where
  updateWindowDims := []
  insertedWindowDims := [0]
  scatterDimsToOperandDims := [0]
  indexVectorDim := 1
  wf := scatter_S200000_S600000x1_S600000_n_0_0_1_wf
def dot_S8000x128_S128x128_S8000x128_1_0_0_1_n_n : DotDims S8000x128 S128x128 S8000x128 where
  lhsContracting := [1]
  rhsContracting := [0]
  lhsNonContracting := [0]
  rhsNonContracting := [1]
  lhsBatch := []
  rhsBatch := []
  wf := dot_S8000x128_S128x128_S8000x128_1_0_0_1_n_n_wf
def gather_S200000x128_S600000x1_S600000x128_1_0_n_n_0_1_1128 : GatherDims S200000x128 S600000x1 S600000x128 where
  offsetDims := [1]
  collapsedSliceDims := [0]
  operandBatchingDims := []
  startIndicesBatchingDims := []
  startIndexMap := [0]
  indexVectorDim := 1
  sliceSizes := ![1, 128]
  wf := gather_S200000x128_S600000x1_S600000x128_1_0_n_n_0_1_1128_wf
def scatter_S200000x128_S600000x1_S600000x128_1_0_0_1 : ScatterDims S200000x128 S600000x1 S600000x128 where
  updateWindowDims := [1]
  insertedWindowDims := [0]
  scatterDimsToOperandDims := [0]
  indexVectorDim := 1
  wf := scatter_S200000x128_S600000x1_S600000x128_1_0_0_1_wf

abbrev win0_0 : Pipeline.Window sig grid0 :=
  Pipeline.Window.ofSpec (Memref.whole main_v13) S8000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S8000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v16) S8000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S8000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S8000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v28) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v30) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v33) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v34) S8000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v34) S8000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v44) S8000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v12) S8000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v46) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v48) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v51) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v52) S8000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v52) S8000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v62) S8000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v12) S8000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v64) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v66) S128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v69) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v70) S8000x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

class Facts : Prop extends Facts₀ where

variable [Facts]
-- ==== ReferenceIdeal.lean ====
abbrev S200000x117 : Shape := ⟨2, ![200000, 117]⟩
abbrev S2x600000 : Shape := ⟨2, ![2, 600000]⟩
abbrev S117x128 : Shape := ⟨2, ![117, 128]⟩
abbrev S128 : Shape := ⟨1, ![128]⟩
abbrev S3x128x128 : Shape := ⟨3, ![3, 128, 128]⟩
abbrev S3x128 : Shape := ⟨2, ![3, 128]⟩
abbrev S200000x128 : Shape := ⟨2, ![200000, 128]⟩
abbrev S1x128 : Shape := ⟨2, ![1, 128]⟩
abbrev S1x600000 : Shape := ⟨2, ![1, 600000]⟩
abbrev S600000 : Shape := ⟨1, ![600000]⟩
abbrev S_ : Shape := ⟨0, ![]⟩
abbrev S200000 : Shape := ⟨1, ![200000]⟩
abbrev S600000x1 : Shape := ⟨2, ![600000, 1]⟩
abbrev S600000x128 : Shape := ⟨2, ![600000, 128]⟩
abbrev S200000x1 : Shape := ⟨2, ![200000, 1]⟩
abbrev S1x128x128 : Shape := ⟨3, ![1, 128, 128]⟩
abbrev S128x128 : Shape := ⟨2, ![128, 128]⟩

abbrev nBuf : Space → Nat
  | .hbm => 118
  | .vmem => 0
  | .smem => 0
  | _ => 0

abbrev bufTy : (tb : Table) → Fin (tcTables nBuf tb) → BufTy
  | .hbm, ⟨0, _⟩ => ⟨S200000x117, .f32⟩
  | .hbm, ⟨1, _⟩ => ⟨S2x600000, .i32⟩
  | .hbm, ⟨2, _⟩ => ⟨S117x128, .f32⟩
  | .hbm, ⟨3, _⟩ => ⟨S128, .f32⟩
  | .hbm, ⟨4, _⟩ => ⟨S3x128x128, .f32⟩
  | .hbm, ⟨5, _⟩ => ⟨S3x128x128, .f32⟩
  | .hbm, ⟨6, _⟩ => ⟨S3x128, .f32⟩
  | .hbm, ⟨7, _⟩ => ⟨S200000x128, .f32⟩
  | .hbm, ⟨8, _⟩ => ⟨S1x128, .f32⟩
  | .hbm, ⟨9, _⟩ => ⟨S200000x128, .f32⟩
  | .hbm, ⟨10, _⟩ => ⟨S200000x128, .f32⟩
  | .hbm, ⟨11, _⟩ => ⟨S200000x128, .f32⟩
  | .hbm, ⟨12, _⟩ => ⟨S1x600000, .i32⟩
  | .hbm, ⟨13, _⟩ => ⟨S600000, .i32⟩
  | .hbm, ⟨14, _⟩ => ⟨S1x600000, .i32⟩
  | .hbm, ⟨15, _⟩ => ⟨S600000, .i32⟩
  | .hbm, ⟨16, _⟩ => ⟨S_, .f32⟩
  | .hbm, ⟨17, _⟩ => ⟨S600000, .f32⟩
  | .hbm, ⟨18, _⟩ => ⟨S_, .f32⟩
  | .hbm, ⟨19, _⟩ => ⟨S200000, .f32⟩
  | .hbm, ⟨20, _⟩ => ⟨S600000x1, .i32⟩
  | .hbm, ⟨21, _⟩ => ⟨S200000, .f32⟩
  | .hbm, ⟨22, _⟩ => ⟨S_, .f32⟩
  | .hbm, ⟨23, _⟩ => ⟨S200000, .f32⟩
  | .hbm, ⟨24, _⟩ => ⟨S200000, .f32⟩
  | .hbm, ⟨25, _⟩ => ⟨S_, .f32⟩
  | .hbm, ⟨26, _⟩ => ⟨S200000, .f32⟩
  | .hbm, ⟨27, _⟩ => ⟨S200000, .f32⟩
  | .hbm, ⟨28, _⟩ => ⟨S_, .i32⟩
  | .hbm, ⟨29, _⟩ => ⟨S600000, .i32⟩
  | .hbm, ⟨30, _⟩ => ⟨S600000, .i1⟩
  | .hbm, ⟨31, _⟩ => ⟨S_, .i32⟩
  | .hbm, ⟨32, _⟩ => ⟨S600000, .i32⟩
  | .hbm, ⟨33, _⟩ => ⟨S600000, .i32⟩
  | .hbm, ⟨34, _⟩ => ⟨S600000, .i32⟩
  | .hbm, ⟨35, _⟩ => ⟨S600000x1, .i32⟩
  | .hbm, ⟨36, _⟩ => ⟨S600000x128, .f32⟩
  | .hbm, ⟨37, _⟩ => ⟨S_, .f32⟩
  | .hbm, ⟨38, _⟩ => ⟨S200000x128, .f32⟩
  | .hbm, ⟨39, _⟩ => ⟨S600000x1, .i32⟩
  | .hbm, ⟨40, _⟩ => ⟨S200000x128, .f32⟩
  | .hbm, ⟨41, _⟩ => ⟨S200000x1, .f32⟩
  | .hbm, ⟨42, _⟩ => ⟨S200000x128, .f32⟩
  | .hbm, ⟨43, _⟩ => ⟨S200000x128, .f32⟩
  | .hbm, ⟨44, _⟩ => ⟨S1x128x128, .f32⟩
  | .hbm, ⟨45, _⟩ => ⟨S128x128, .f32⟩
  | .hbm, ⟨46, _⟩ => ⟨S200000x128, .f32⟩
  | .hbm, ⟨47, _⟩ => ⟨S1x128x128, .f32⟩
  | .hbm, ⟨48, _⟩ => ⟨S128x128, .f32⟩
  | .hbm, ⟨49, _⟩ => ⟨S200000x128, .f32⟩
  | .hbm, ⟨50, _⟩ => ⟨S200000x128, .f32⟩
  | .hbm, ⟨51, _⟩ => ⟨S1x128, .f32⟩
  | .hbm, ⟨52, _⟩ => ⟨S128, .f32⟩
  | .hbm, ⟨53, _⟩ => ⟨S1x128, .f32⟩
  | .hbm, ⟨54, _⟩ => ⟨S200000x128, .f32⟩
  | .hbm, ⟨55, _⟩ => ⟨S200000x128, .f32⟩
  | .hbm, ⟨56, _⟩ => ⟨S_, .f32⟩
  | .hbm, ⟨57, _⟩ => ⟨S200000x128, .f32⟩
  | .hbm, ⟨58, _⟩ => ⟨S200000x128, .f32⟩
  | .hbm, ⟨59, _⟩ => ⟨S_, .i32⟩
  | .hbm, ⟨60, _⟩ => ⟨S600000, .i32⟩
  | .hbm, ⟨61, _⟩ => ⟨S600000, .i1⟩
  | .hbm, ⟨62, _⟩ => ⟨S_, .i32⟩
  | .hbm, ⟨63, _⟩ => ⟨S600000, .i32⟩
  | .hbm, ⟨64, _⟩ => ⟨S600000, .i32⟩
  | .hbm, ⟨65, _⟩ => ⟨S600000, .i32⟩
  | .hbm, ⟨66, _⟩ => ⟨S600000x1, .i32⟩
  | .hbm, ⟨67, _⟩ => ⟨S600000x128, .f32⟩
  | .hbm, ⟨68, _⟩ => ⟨S_, .f32⟩
  | .hbm, ⟨69, _⟩ => ⟨S200000x128, .f32⟩
  | .hbm, ⟨70, _⟩ => ⟨S600000x1, .i32⟩
  | .hbm, ⟨71, _⟩ => ⟨S200000x128, .f32⟩
  | .hbm, ⟨72, _⟩ => ⟨S200000x1, .f32⟩
  | .hbm, ⟨73, _⟩ => ⟨S200000x128, .f32⟩
  | .hbm, ⟨74, _⟩ => ⟨S200000x128, .f32⟩
  | .hbm, ⟨75, _⟩ => ⟨S1x128x128, .f32⟩
  | .hbm, ⟨76, _⟩ => ⟨S128x128, .f32⟩
  | .hbm, ⟨77, _⟩ => ⟨S200000x128, .f32⟩
  | .hbm, ⟨78, _⟩ => ⟨S1x128x128, .f32⟩
  | .hbm, ⟨79, _⟩ => ⟨S128x128, .f32⟩
  | .hbm, ⟨80, _⟩ => ⟨S200000x128, .f32⟩
  | .hbm, ⟨81, _⟩ => ⟨S200000x128, .f32⟩
  | .hbm, ⟨82, _⟩ => ⟨S1x128, .f32⟩
  | .hbm, ⟨83, _⟩ => ⟨S128, .f32⟩
  | .hbm, ⟨84, _⟩ => ⟨S1x128, .f32⟩
  | .hbm, ⟨85, _⟩ => ⟨S200000x128, .f32⟩
  | .hbm, ⟨86, _⟩ => ⟨S200000x128, .f32⟩
  | .hbm, ⟨87, _⟩ => ⟨S_, .f32⟩
  | .hbm, ⟨88, _⟩ => ⟨S200000x128, .f32⟩
  | .hbm, ⟨89, _⟩ => ⟨S200000x128, .f32⟩
  | .hbm, ⟨90, _⟩ => ⟨S_, .i32⟩
  | .hbm, ⟨91, _⟩ => ⟨S600000, .i32⟩
  | .hbm, ⟨92, _⟩ => ⟨S600000, .i1⟩
  | .hbm, ⟨93, _⟩ => ⟨S_, .i32⟩
  | .hbm, ⟨94, _⟩ => ⟨S600000, .i32⟩
  | .hbm, ⟨95, _⟩ => ⟨S600000, .i32⟩
  | .hbm, ⟨96, _⟩ => ⟨S600000, .i32⟩
  | .hbm, ⟨97, _⟩ => ⟨S600000x1, .i32⟩
  | .hbm, ⟨98, _⟩ => ⟨S600000x128, .f32⟩
  | .hbm, ⟨99, _⟩ => ⟨S_, .f32⟩
  | .hbm, ⟨100, _⟩ => ⟨S200000x128, .f32⟩
  | .hbm, ⟨101, _⟩ => ⟨S600000x1, .i32⟩
  | .hbm, ⟨102, _⟩ => ⟨S200000x128, .f32⟩
  | .hbm, ⟨103, _⟩ => ⟨S200000x1, .f32⟩
  | .hbm, ⟨104, _⟩ => ⟨S200000x128, .f32⟩
  | .hbm, ⟨105, _⟩ => ⟨S200000x128, .f32⟩
  | .hbm, ⟨106, _⟩ => ⟨S1x128x128, .f32⟩
  | .hbm, ⟨107, _⟩ => ⟨S128x128, .f32⟩
  | .hbm, ⟨108, _⟩ => ⟨S200000x128, .f32⟩
  | .hbm, ⟨109, _⟩ => ⟨S1x128x128, .f32⟩
  | .hbm, ⟨110, _⟩ => ⟨S128x128, .f32⟩
  | .hbm, ⟨111, _⟩ => ⟨S200000x128, .f32⟩
  | .hbm, ⟨112, _⟩ => ⟨S200000x128, .f32⟩
  | .hbm, ⟨113, _⟩ => ⟨S1x128, .f32⟩
  | .hbm, ⟨114, _⟩ => ⟨S128, .f32⟩
  | .hbm, ⟨115, _⟩ => ⟨S1x128, .f32⟩
  | .hbm, ⟨116, _⟩ => ⟨S200000x128, .f32⟩
  | .hbm, ⟨117, _⟩ => ⟨S200000x128, .f32⟩
  | _, _ => ⟨S200000x117, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_c : Ref sig .tc := ⟨.hbm, 28, rfl⟩
abbrev main_v17 : Ref sig .tc := ⟨.hbm, 29, rfl⟩
abbrev main_v18 : Ref sig .tc := ⟨.hbm, 30, rfl⟩
abbrev main_c_3 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_4 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_call0_cst : Ref sig .tc := ⟨.hbm, 56, rfl⟩
abbrev main_call0_v0 : Ref sig .tc := ⟨.hbm, 57, rfl⟩
abbrev main_v42 : Ref sig .tc := ⟨.hbm, 58, rfl⟩
abbrev main_c_5 : Ref sig .tc := ⟨.hbm, 59, rfl⟩
abbrev main_v43 : Ref sig .tc := ⟨.hbm, 60, rfl⟩
abbrev main_v44 : Ref sig .tc := ⟨.hbm, 61, rfl⟩
abbrev main_c_6 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_7 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_call1_cst : Ref sig .tc := ⟨.hbm, 87, rfl⟩
abbrev main_call1_v0 : Ref sig .tc := ⟨.hbm, 88, rfl⟩
abbrev main_v68 : Ref sig .tc := ⟨.hbm, 89, rfl⟩
abbrev main_c_8 : Ref sig .tc := ⟨.hbm, 90, rfl⟩
abbrev main_v69 : Ref sig .tc := ⟨.hbm, 91, rfl⟩
abbrev main_v70 : Ref sig .tc := ⟨.hbm, 92, rfl⟩
abbrev main_c_9 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_cst_10 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S200000x128_0_1 : S1x128.BroadcastsInDim S200000x128 (![0, 1] : Fin 2 → Fin S200000x128.rank)
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S_S200000 : S_.BroadcastsInDim S200000 (![] : Fin 0 → Fin S200000.rank)
  bcast_S600000_S600000x1_0 : S600000.BroadcastsInDim S600000x1 (![0] : Fin 1 → Fin S600000x1.rank)
  bcast_S_S200000x128 : S_.BroadcastsInDim S200000x128 (![] : Fin 0 → Fin S200000x128.rank)
  bcast_S200000_S200000x1_0 : S200000.BroadcastsInDim S200000x1 (![0] : Fin 1 → Fin S200000x1.rank)
  bcast_S200000x1_S200000x128_0_1 : S200000x1.BroadcastsInDim S200000x128 (![0, 1] : Fin 2 → Fin S200000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  dot_S200000x117_S117x128_S200000x128_1_0_0_1_n_n_wf : DotDims.WF S200000x117 S117x128 S200000x128 [1] [0] [0] [1] [] []
  scatter_S200000_S600000x1_S600000_n_0_0_1_wf : ScatterDims.WF S200000 S600000x1 S600000 [] [0] [0] 1
  gather_S200000x128_S600000x1_S600000x128_1_0_n_n_0_1_1128_wf : GatherDims.WF S200000x128 S600000x1 S600000x128 [1] [0] [] [0] [] 1 ![1, 128]
  scatter_S200000x128_S600000x1_S600000x128_1_0_0_1_wf : ScatterDims.WF S200000x128 S600000x1 S600000x128 [1] [0] [0] 1
  dot_S200000x128_S128x128_S200000x128_1_0_0_1_n_n_wf : DotDims.WF S200000x128 S128x128 S200000x128 [1] [0] [0] [1] [] []

variable [Facts₀]

def dot_S200000x117_S117x128_S200000x128_1_0_0_1_n_n : DotDims S200000x117 S117x128 S200000x128 where
  lhsContracting := [1]
  rhsContracting := [0]
  lhsNonContracting := [0]
  rhsNonContracting := [1]
  lhsBatch := []
  rhsBatch := []
  wf := dot_S200000x117_S117x128_S200000x128_1_0_0_1_n_n_wf
def scatter_S200000_S600000x1_S600000_n_0_0_1 : ScatterDims S200000 S600000x1 S600000 where
  updateWindowDims := []
  insertedWindowDims := [0]
  scatterDimsToOperandDims := [0]
  indexVectorDim := 1
  wf := scatter_S200000_S600000x1_S600000_n_0_0_1_wf
def gather_S200000x128_S600000x1_S600000x128_1_0_n_n_0_1_1128 : GatherDims S200000x128 S600000x1 S600000x128 where
  offsetDims := [1]
  collapsedSliceDims := [0]
  operandBatchingDims := []
  startIndicesBatchingDims := []
  startIndexMap := [0]
  indexVectorDim := 1
  sliceSizes := ![1, 128]
  wf := gather_S200000x128_S600000x1_S600000x128_1_0_n_n_0_1_1128_wf
def scatter_S200000x128_S600000x1_S600000x128_1_0_0_1 : ScatterDims S200000x128 S600000x1 S600000x128 where
  updateWindowDims := [1]
  insertedWindowDims := [0]
  scatterDimsToOperandDims := [0]
  indexVectorDim := 1
  wf := scatter_S200000x128_S600000x1_S600000x128_1_0_0_1_wf
def dot_S200000x128_S128x128_S200000x128_1_0_0_1_n_n : DotDims S200000x128 S128x128 S200000x128 where
  lhsContracting := [1]
  rhsContracting := [0]
  lhsNonContracting := [0]
  rhsNonContracting := [1]
  lhsBatch := []
  rhsBatch := []
  wf := dot_S200000x128_S128x128_S200000x128_1_0_0_1_n_n_wf

class Facts : Prop extends Facts₀ where

variable [Facts]
-- ==== Proof.KernelRun.lean ====
/-
  The idealized kernel's run with its result named. Every weakly fair execution of @main terminates without a fault in a
  state whose result array is what the last region's write-backs leave of it — the contents `W12` of the fold through
  @main's twelve segments, read at the result's buffer — and whose argument arrays are as launched. The final thread state
  holds every unscoped buffer at the last boundary's contents; the result is one of them, read like the arguments.
-/
import proofs.«170630_j57097295233646_2_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The launch over @main's segments, the last thread state read against the final state: the result's buffer at the
    last boundary's contents, each argument's buffer walked back through the fold to the launch memory. -/
theorem run_named : θ_run defs (onTc (τ := τ) (main (F := F))) ⟨m, fun _ => 0, ρ⟩ (fun r => ∀ c : Dev nD,
      r.2.mem ((c.tc : Thread nD τ).loc main_v70) = W12 m ρ c (Proc.devRef .tc main_v70)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v70 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c)⟩)

end Cert.KernelIdeal.Named

end
-- ==== Proof.KernelHost.lean ====
/-
  The host-side functions of the idealized kernel's @main, named: the two rows of the edge table as vectors; the
  source column (a negative source index wrapped by the node count) and the target column; the aggregation (gather the
  source rows of h, add each onto the row of its target, starting from zeros); the per-node scale 1 / max(degree, 1),
  the degree counted by adding ones onto zeros at the targets; layer i's two weight matrices and bias vector, slab i
  of the stacked arguments; the feature matrix and the input weights padded with zeros to 128 contracted positions.
-/
import proofs.«170630_j57097295233646_2_alg».proof.Proof.Gen.KernelIdeal
import Idealize.ShloMosaic.PureOps.Ideal

noncomputable section

namespace Cert.KernelIdeal.HostFns

open Cert.KernelIdeal Cert.KernelIdeal.Facts₀ Cert.KernelIdeal.Facts Idealize.ShloMosaic

/-- Row 0 of the edge table: the edges' sources. -/
def srcRow (x1 : (⟨S2x600000, .i32⟩ : BufTy).Contents (Elt Ideal)) : (⟨S600000, .i32⟩ : BufTy).Contents (Elt Ideal) :=
  shapeCast S600000 (extractStridedSlice S1x600000 ![0, 0] x1 slices_S2x600000_S1x600000_0_0) shapeCasts_S1x600000_S600000

/-- Row 1 of the edge table: the edges' targets. -/
def dstRow (x1 : (⟨S2x600000, .i32⟩ : BufTy).Contents (Elt Ideal)) : (⟨S600000, .i32⟩ : BufTy).Contents (Elt Ideal) :=
  shapeCast S600000 (extractStridedSlice S1x600000 ![1, 0] x1 slices_S2x600000_S1x600000_1_0) shapeCasts_S1x600000_S600000

/-- The sources as a column, a negative index wrapped by the node count. -/
def srcCol (v1 : (⟨S600000, .i32⟩ : BufTy).Contents (Elt Ideal)) : (⟨S600000x1, .i32⟩ : BufTy).Contents (Elt Ideal) :=
  broadcastInDim S600000x1 ![0] bcast_S600000_S600000x1_0
    (select (cmpi .slt v1 (broadcastInDim S600000 ![] bcast_S_S600000 (constantI S_ 32 0#32)))
      (addi v1 (broadcastInDim S600000 ![] bcast_S_S600000 (constantI S_ 32 200000#32))) v1)

/-- The targets as a column. -/
def dstCol (v3 : (⟨S600000, .i32⟩ : BufTy).Contents (Elt Ideal)) : (⟨S600000x1, .i32⟩ : BufTy).Contents (Elt Ideal) :=
  broadcastInDim S600000x1 ![0] bcast_S600000_S600000x1_0 v3

/-- The aggregation: the source rows of h gathered, each added onto the row of its target, from zeros. -/
def agg (v1 v3 : (⟨S600000, .i32⟩ : BufTy).Contents (Elt Ideal)) (h : FVec Ideal S200000x128 .f32) :
    FVec Ideal S200000x128 .f32 :=
  Host.scatterAdd scatter_S200000x128_S600000x1_S600000x128_1_0_0_1
    (broadcastInDim S200000x128 ![] bcast_S_S200000x128 (constant S_ .f32 0x00000000#32)) (dstCol v3)
    (Host.gather gather_S200000x128_S600000x1_S600000x128_1_0_n_n_0_1_1128 h (srcCol v1))

/-- The per-node scale: one over the larger of the node's in-degree and one. -/
def inv (v3 : (⟨S600000, .i32⟩ : BufTy).Contents (Elt Ideal)) : FVec Ideal S200000 .f32 :=
  Host.divf (broadcastInDim S200000 ![] bcast_S_S200000 (constant S_ .f32 0x3F800000#32))
    (maximumf
      (Host.scatterAdd scatter_S200000_S600000x1_S600000_n_0_0_1
        (broadcastInDim S200000 ![] bcast_S_S200000 (constant S_ .f32 0x00000000#32)) (dstCol v3)
        (broadcastInDim S600000 ![] bcast_S_S600000 (constant S_ .f32 0x3F800000#32)))
      (broadcastInDim S200000 ![] bcast_S_S200000 (constant S_ .f32 0x3F800000#32)))

/-- The scale as a one-column matrix. -/
def invCol (v3 : (⟨S600000, .i32⟩ : BufTy).Contents (Elt Ideal)) : FVec Ideal S200000x1 .f32 :=
  shapeCast S200000x1 (inv v3) shapeCasts_S200000_S200000x1

/-- Slab 0, 1, 2 of a stack of three weight matrices. -/
def mat0 (x : FVec Ideal S3x128x128 .f32) : FVec Ideal S128x128 .f32 :=
  shapeCast S128x128 (extractStridedSlice S1x128x128 ![0, 0, 0] x slices_S3x128x128_S1x128x128_0_0_0) shapeCasts_S1x128x128_S128x128
def mat1 (x : FVec Ideal S3x128x128 .f32) : FVec Ideal S128x128 .f32 :=
  shapeCast S128x128 (extractStridedSlice S1x128x128 ![1, 0, 0] x slices_S3x128x128_S1x128x128_1_0_0) shapeCasts_S1x128x128_S128x128
def mat2 (x : FVec Ideal S3x128x128 .f32) : FVec Ideal S128x128 .f32 :=
  shapeCast S128x128 (extractStridedSlice S1x128x128 ![2, 0, 0] x slices_S3x128x128_S1x128x128_2_0_0) shapeCasts_S1x128x128_S128x128

/-- Row 0, 1, 2 of a stack of three bias vectors. -/
def vec0 (x : FVec Ideal S3x128 .f32) : FVec Ideal S128 .f32 :=
  shapeCast S128 (extractStridedSlice S1x128 ![0, 0] x slices_S3x128_S1x128_0_0) shapeCasts_S1x128_S128
def vec1 (x : FVec Ideal S3x128 .f32) : FVec Ideal S128 .f32 :=
  shapeCast S128 (extractStridedSlice S1x128 ![1, 0] x slices_S3x128_S1x128_1_0) shapeCasts_S1x128_S128
def vec2 (x : FVec Ideal S3x128 .f32) : FVec Ideal S128 .f32 :=
  shapeCast S128 (extractStridedSlice S1x128 ![2, 0] x slices_S3x128_S1x128_2_0) shapeCasts_S1x128_S128

/-- A vector as a one-row matrix. -/
def row (b : FVec Ideal S128 .f32) : FVec Ideal S1x128 .f32 := shapeCast S1x128 b shapeCasts_S128_S1x128

/-- The padding value: the integer zero as a float. -/
def padValue : FVec Ideal S_ .f32 := sitofp .f32 (constantI S_ 32 0#32)

/-- The feature matrix with eleven zero columns appended. -/
def padX (x0 : FVec Ideal S200000x117 .f32) : FVec Ideal S200000x128 .f32 :=
  pad S200000x128 ![0, 0] ![0, 11] ![0, 0] x0 padValue pads_S200000x117_S200000x128_000_0110 h_S_

/-- The input weights with eleven zero rows appended. -/
def padW (x2 : FVec Ideal S117x128 .f32) : FVec Ideal S128x128 .f32 :=
  pad S128x128 ![0, 0] ![11, 0] ![0, 0] x2 padValue pads_S117x128_S128x128_0110_000 h_S_

end Cert.KernelIdeal.HostFns

end
-- ==== Proof.LibSageLayer.lean ====
/-
  Dense layers of a mean-aggregating graph network on the extended reals, as whole-array functions read at
  coordinates, for any extents.

  * `proj x w b` is tanh(x·w + b): entry (p, q) is tanh of row p of x against column q of w, plus b q.
  * `combine h agg inv ws wn b` is h·ws + (agg scaled row by row by inv)·wn + b: entry (p, q) is row p of h against
    column q of ws, plus row p of agg, each entry times inv p, against column q of wn, plus b q.
  * `rectify z y` is the entrywise maximum of y and the value z.
  * `net3` is the projection followed by three such layers sharing one aggregation and one per-row scale, the first
    two rectified.

  The forms `projRow` / `combineCol` read the bias through a one-row matrix [1, ·] and the per-row scale through a
  one-column matrix [·, 1] (how a row-tiled kernel holds them); they are the same functions when the row and the
  column hold the vectors' entries. A contraction over k' ≥ k positions whose extra positions contribute zero is the
  contraction over the first k positions (operands padded with zeros along the contracted axis).
-/
import Idealize.ShloMosaic.Lib.ValueIdx
import Idealize.ShloMosaic.PureOps.Ideal.Laws

open scoped BigOperators

noncomputable section

namespace Idealize.ShloMosaic.SageLayer

open Idealize.ShloMosaic Idealize.ShloMosaic.ValueIdx

variable {n k d e : ℕ}

/-- Row `p` of `x` against column `q` of `w`. -/
def rowDot (x : FVec Ideal ⟨2, ![n, k]⟩ .f32) (w : FVec Ideal ⟨2, ![k, d]⟩ .f32) (p : Fin n) (q : Fin d) : EReal :=
  ∑ j : Fin k, x (ix2 p j) * w (ix2 j q)

/-- Row `p` of `agg`, every entry times the row's scale `s`, against column `q` of `w`. -/
def scaledRowDot (agg : FVec Ideal ⟨2, ![n, k]⟩ .f32) (s : EReal) (w : FVec Ideal ⟨2, ![k, d]⟩ .f32) (p : Fin n)
    (q : Fin d) : EReal :=
  ∑ j : Fin k, (agg (ix2 p j) * s) * w (ix2 j q)

/-- Entry (p, q) of tanh(x·w + b), the bias entry given. -/
def projAt (x : FVec Ideal ⟨2, ![n, k]⟩ .f32) (w : FVec Ideal ⟨2, ![k, d]⟩ .f32) (bq : EReal) (p : Fin n) (q : Fin d) :
    EReal :=
  Ideal.tanh (rowDot x w p q + bq)

/-- Entry (p, q) of h·ws + (agg scaled by the row's scale)·wn + b, the row's scale and the bias entry given. -/
def combineAt (h agg : FVec Ideal ⟨2, ![n, d]⟩ .f32) (s : EReal) (ws wn : FVec Ideal ⟨2, ![d, e]⟩ .f32) (bq : EReal)
    (p : Fin n) (q : Fin e) : EReal :=
  rowDot h ws p q + scaledRowDot agg s wn p q + bq

/-- tanh(x·w + b). -/
def proj (x : FVec Ideal ⟨2, ![n, k]⟩ .f32) (w : FVec Ideal ⟨2, ![k, d]⟩ .f32) (b : FVec Ideal ⟨1, ![d]⟩ .f32) :
    FVec Ideal ⟨2, ![n, d]⟩ .f32 :=
  fun i => projAt x w (b (ix1 (i 1))) (i 0) (i 1)

/-- The same with the bias held as a one-row matrix. -/
def projRow (x : FVec Ideal ⟨2, ![n, k]⟩ .f32) (w : FVec Ideal ⟨2, ![k, d]⟩ .f32) (b : FVec Ideal ⟨2, ![1, d]⟩ .f32) :
    FVec Ideal ⟨2, ![n, d]⟩ .f32 :=
  fun i => projAt x w (b (ix2 (0 : Fin 1) (i 1))) (i 0) (i 1)

/-- h·ws + (agg scaled row by row by inv)·wn + b. -/
def combine (h agg : FVec Ideal ⟨2, ![n, d]⟩ .f32) (inv : FVec Ideal ⟨1, ![n]⟩ .f32)
    (ws wn : FVec Ideal ⟨2, ![d, e]⟩ .f32) (b : FVec Ideal ⟨1, ![e]⟩ .f32) : FVec Ideal ⟨2, ![n, e]⟩ .f32 :=
  fun i => combineAt h agg (inv (ix1 (i 0))) ws wn (b (ix1 (i 1))) (i 0) (i 1)

/-- The same with the scale held as a one-column matrix and the bias as a one-row matrix. -/
def combineCol (h agg : FVec Ideal ⟨2, ![n, d]⟩ .f32) (inv : FVec Ideal ⟨2, ![n, 1]⟩ .f32)
    (ws wn : FVec Ideal ⟨2, ![d, e]⟩ .f32) (b : FVec Ideal ⟨2, ![1, e]⟩ .f32) : FVec Ideal ⟨2, ![n, e]⟩ .f32 :=
  fun i => combineAt h agg (inv (ix2 (i 0) (0 : Fin 1))) ws wn (b (ix2 (0 : Fin 1) (i 1))) (i 0) (i 1)

/-- The entrywise maximum with the value `z`. -/
def rectify {s : Shape} (z : EReal) (y : FVec Ideal s .f32) : FVec Ideal s .f32 := fun i => max (y i) z

theorem proj_ix2 (x : FVec Ideal ⟨2, ![n, k]⟩ .f32) (w : FVec Ideal ⟨2, ![k, d]⟩ .f32) (b : FVec Ideal ⟨1, ![d]⟩ .f32)
    (p : Fin n) (q : Fin d) : proj x w b (ix2 p q) = projAt x w (b (ix1 q)) p q := rfl

theorem projRow_ix2 (x : FVec Ideal ⟨2, ![n, k]⟩ .f32) (w : FVec Ideal ⟨2, ![k, d]⟩ .f32)
    (b : FVec Ideal ⟨2, ![1, d]⟩ .f32) (p : Fin n) (q : Fin d) :
    projRow x w b (ix2 p q) = projAt x w (b (ix2 (0 : Fin 1) q)) p q := rfl

theorem combine_ix2 (h agg : FVec Ideal ⟨2, ![n, d]⟩ .f32) (inv : FVec Ideal ⟨1, ![n]⟩ .f32)
    (ws wn : FVec Ideal ⟨2, ![d, e]⟩ .f32) (b : FVec Ideal ⟨1, ![e]⟩ .f32) (p : Fin n) (q : Fin e) :
    combine h agg inv ws wn b (ix2 p q) = combineAt h agg (inv (ix1 p)) ws wn (b (ix1 q)) p q := rfl

theorem combineCol_ix2 (h agg : FVec Ideal ⟨2, ![n, d]⟩ .f32) (inv : FVec Ideal ⟨2, ![n, 1]⟩ .f32)
    (ws wn : FVec Ideal ⟨2, ![d, e]⟩ .f32) (b : FVec Ideal ⟨2, ![1, e]⟩ .f32) (p : Fin n) (q : Fin e) :
    combineCol h agg inv ws wn b (ix2 p q)
      = combineAt h agg (inv (ix2 p (0 : Fin 1))) ws wn (b (ix2 (0 : Fin 1) q)) p q := rfl

theorem projRow_eq (x : FVec Ideal ⟨2, ![n, k]⟩ .f32) (w : FVec Ideal ⟨2, ![k, d]⟩ .f32)
    (b : FVec Ideal ⟨1, ![d]⟩ .f32) (br : FVec Ideal ⟨2, ![1, d]⟩ .f32)
    (hb : ∀ q : Fin d, br (ix2 (0 : Fin 1) q) = b (ix1 q)) : projRow x w br = proj x w b := by
  funext i
  obtain ⟨p, q, rfl⟩ : ∃ (p : Fin n) (q : Fin d), i = ix2 p q := ⟨i 0, i 1, eq_ix2 i⟩
  rw [projRow_ix2, proj_ix2, hb q]

theorem combineCol_eq (h agg : FVec Ideal ⟨2, ![n, d]⟩ .f32) (inv : FVec Ideal ⟨1, ![n]⟩ .f32)
    (ws wn : FVec Ideal ⟨2, ![d, e]⟩ .f32) (b : FVec Ideal ⟨1, ![e]⟩ .f32)
    (invc : FVec Ideal ⟨2, ![n, 1]⟩ .f32) (br : FVec Ideal ⟨2, ![1, e]⟩ .f32)
    (hi : ∀ p : Fin n, invc (ix2 p (0 : Fin 1)) = inv (ix1 p)) (hb : ∀ q : Fin e, br (ix2 (0 : Fin 1) q) = b (ix1 q)) :
    combineCol h agg invc ws wn br = combine h agg inv ws wn b := by
  funext i
  obtain ⟨p, q, rfl⟩ : ∃ (p : Fin n) (q : Fin e), i = ix2 p q := ⟨i 0, i 1, eq_ix2 i⟩
  rw [combineCol_ix2, combine_ix2, hi p, hb q]

/-- A sum over `k'` positions whose first `k` terms are those of `f` and whose other terms vanish is the sum of `f`. -/
theorem sum_padded {k k' : ℕ} (hk : k ≤ k') (f : Fin k → EReal) (g : Fin k' → EReal)
    (hin : ∀ j : Fin k, g ⟨j.val, lt_of_lt_of_le j.isLt hk⟩ = f j) (hout : ∀ j : Fin k', k ≤ j.val → g j = 0) :
    ∑ j, g j = ∑ j, f j := by
  obtain ⟨r, rfl⟩ := Nat.exists_eq_add_of_le hk
  rw [Fin.sum_univ_add, Finset.sum_eq_zero (s := Finset.univ) (f := fun j : Fin r => g (Fin.natAdd k j))
    (fun j _ => hout _ (by show k ≤ k + j.val; omega)), add_zero]
  exact Finset.sum_congr rfl fun j _ => hin j

/-- Row `p` of a matrix padded with zero columns against column `q` of a matrix padded along its rows is row `p`
    against column `q` of the unpadded matrices. -/
theorem rowDot_padded {k' : ℕ} (hk : k ≤ k') (x : FVec Ideal ⟨2, ![n, k]⟩ .f32) (w : FVec Ideal ⟨2, ![k, d]⟩ .f32)
    (x' : FVec Ideal ⟨2, ![n, k']⟩ .f32) (w' : FVec Ideal ⟨2, ![k', d]⟩ .f32) (p : Fin n) (q : Fin d)
    (hx : ∀ j : Fin k, x' (ix2 p ⟨j.val, lt_of_lt_of_le j.isLt hk⟩) = x (ix2 p j))
    (hw : ∀ j : Fin k, w' (ix2 ⟨j.val, lt_of_lt_of_le j.isLt hk⟩ q) = w (ix2 j q))
    (hx0 : ∀ j : Fin k', k ≤ j.val → x' (ix2 p j) = 0) :
    rowDot x' w' p q = rowDot x w p q := by
  unfold rowDot
  refine sum_padded hk _ _ (fun j => ?_) (fun j hj => ?_)
  · rw [hx, hw]
  · rw [hx0 j hj, zero_mul]

/-- One layer before its rectifier: the layer's input `h` combined with its aggregate `A h`. -/
def layerOut (A : FVec Ideal ⟨2, ![n, d]⟩ .f32 → FVec Ideal ⟨2, ![n, d]⟩ .f32) (inv : FVec Ideal ⟨1, ![n]⟩ .f32)
    (ws wn : FVec Ideal ⟨2, ![d, d]⟩ .f32) (b : FVec Ideal ⟨1, ![d]⟩ .f32) (h : FVec Ideal ⟨2, ![n, d]⟩ .f32) :
    FVec Ideal ⟨2, ![n, d]⟩ .f32 :=
  combine h (A h) inv ws wn b

/-- A dense tanh projection followed by three mean-aggregating layers with one aggregation `A` and one per-row scale
    `inv`, the first two layers rectified against `z`. -/
def net3 (A : FVec Ideal ⟨2, ![n, d]⟩ .f32 → FVec Ideal ⟨2, ![n, d]⟩ .f32) (z : EReal)
    (x : FVec Ideal ⟨2, ![n, k]⟩ .f32) (w : FVec Ideal ⟨2, ![k, d]⟩ .f32) (b : FVec Ideal ⟨1, ![d]⟩ .f32)
    (inv : FVec Ideal ⟨1, ![n]⟩ .f32)
    (ws0 wn0 : FVec Ideal ⟨2, ![d, d]⟩ .f32) (b0 : FVec Ideal ⟨1, ![d]⟩ .f32)
    (ws1 wn1 : FVec Ideal ⟨2, ![d, d]⟩ .f32) (b1 : FVec Ideal ⟨1, ![d]⟩ .f32)
    (ws2 wn2 : FVec Ideal ⟨2, ![d, d]⟩ .f32) (b2 : FVec Ideal ⟨1, ![d]⟩ .f32) : FVec Ideal ⟨2, ![n, d]⟩ .f32 :=
  layerOut A inv ws2 wn2 b2 (rectify z (layerOut A inv ws1 wn1 b1 (rectify z (layerOut A inv ws0 wn0 b0 (proj x w b)))))

end Idealize.ShloMosaic.SageLayer

end
-- ==== Proof.LibPad.lean ====
/-
  `stablehlo.pad` read at an index: a result index that lands on operand entry `k` (on every axis its coordinate is
  `lo + k · (interior + 1)`) reads the operand there; an index that misses the operand on some axis reads the padding value.
-/
import Idealize.ShloMosaic.PureOps.ShapeOps

namespace Idealize.ShloMosaic.LibPad

open Idealize.ShloMosaic

variable {s t u : Shape} {α : Type}

/-- The padded array at an index that lands on the operand's entry `k` is the operand at `k`. -/
theorem pad_apply_of_mem (lo hi interior : Fin s.rank → Nat) (x : s.Idx → α) (v : u.Idx → α)
    (h : s.Pads lo hi interior t) (hu : 0 < u.numel) (j : t.Idx) (k : s.Idx)
    (hk : ∀ a : Fin s.rank, (j (a.cast h.1)).val = lo a + (k a).val * (interior a + 1)) :
    pad t lo hi interior x v h hu j = x k := by
  have hin : ∀ a : Fin s.rank, lo a ≤ (j (a.cast h.1)).val ∧ ((j (a.cast h.1)).val - lo a) % (interior a + 1) = 0
      ∧ ((j (a.cast h.1)).val - lo a) / (interior a + 1) < s.size a := fun a => by
    rw [hk a]
    refine ⟨Nat.le_add_right _ _, ?_, ?_⟩
    · rw [Nat.add_sub_cancel_left]; exact Nat.mul_mod_left _ _
    · rw [Nat.add_sub_cancel_left, Nat.mul_div_cancel _ (Nat.succ_pos _)]; exact (k a).isLt
  unfold pad
  rw [dif_pos hin]
  exact congrArg x (funext fun a => Fin.ext (by
    show ((j (a.cast h.1)).val - lo a) / (interior a + 1) = (k a).val
    rw [hk a, Nat.add_sub_cancel_left, Nat.mul_div_cancel _ (Nat.succ_pos _)]))

/-- The padded array at an index beyond the operand on some axis (no interior padding there is needed: it is enough that the
    coordinate, less the low padding, divided by the stride, is not below the operand's extent) is the padding value. -/
theorem pad_apply_of_not_mem (lo hi interior : Fin s.rank → Nat) (x : s.Idx → α) (v : u.Idx → α)
    (h : s.Pads lo hi interior t) (hu : 0 < u.numel) (j : t.Idx) (a : Fin s.rank)
    (ha : s.size a ≤ ((j (a.cast h.1)).val - lo a) / (interior a + 1)) :
    pad t lo hi interior x v h hu j = v (Shape.Idx.first hu) := by
  unfold pad
  rw [dif_neg]
  intro hin
  exact absurd (hin a).2.2 (Nat.not_lt.mpr ha)

end Idealize.ShloMosaic.LibPad
-- ==== Proof.LibColumns.lean ====
/-
  Column forms of a keepdims reduction, read at coordinates: a vector of `a` entries cast to the column `[a, 1]` reads
  its entry `i` at `(i, 0)`, and a column `[a, 1]` broadcast along `b` columns reads, at `(p, c)`, the column at
  `(p, 0)` — so a per-row value (a row maximum, a row sum) laid against every entry of its row is that row's value.
-/
import Idealize.ShloMosaic.Lib.ValueIdx
import Idealize.ShloMosaic.Lib.Pipeline.Value

namespace Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- A per-row value cast to a column and broadcast along the row reads, at `(p, c)`, the value of row `p`. -/
theorem broadcastTo_column_apply {a b : ℕ} (x : (⟨1, ![a]⟩ : Shape).Idx → α) (h1 : (⟨1, ![a]⟩ : Shape).ShapeCasts ⟨2, ![a, 1]⟩)
    (h2 : (⟨2, ![a, 1]⟩ : Shape).Broadcasts ⟨2, ![a, b]⟩) (p : Fin a) (c : Fin b) :
    broadcastTo ⟨2, ![a, b]⟩ (shapeCast ⟨2, ![a, 1]⟩ x h1) h2 (ix2 p c) = x (ix1 p) :=
  (broadcastTo_a1_ab_apply _ h2 p c).trans (shapeCast_a_a1_apply x h1 p 0)

end Idealize.ShloMosaic.ValueIdx
-- ==== Proof.KernelPad.lean ====
/-
  The kernel's host-side layouts against the vectors and matrices they hold.

  The feature matrix padded with eleven zero columns against the input weights padded with eleven rows contracts over
  128 positions of which the last eleven contribute 0 · w = 0, so tanh(x'·w' + b) read through the bias row is
  tanh(x·w + b) over the 117 real positions. The per-node scale held as a one-column matrix reads, at (p, 0), the
  scale of node p, and a bias vector held as a one-row matrix reads, at (0, q), its entry q.
-/
import proofs.«170630_j57097295233646_2_alg».proof.Proof.KernelHost
import proofs.«170630_j57097295233646_2_alg».proof.Proof.LibSageLayer
import proofs.«170630_j57097295233646_2_alg».proof.Proof.LibPad
import proofs.«170630_j57097295233646_2_alg».proof.Proof.LibColumns
import Idealize.ShloMosaic.Lib.ValueIdx
import Idealize.ShloMosaic.Lib.ValueLayout
import Idealize.ShloMosaic.PureOps.Ideal.Laws

noncomputable section

namespace Cert.KernelIdeal.HostFns

open Cert.KernelIdeal Cert.KernelIdeal.Facts₀ Cert.KernelIdeal.Facts Idealize.ShloMosaic Idealize.ShloMosaic.ValueIdx

/-- The padding value is zero. -/
theorem padValue_apply (i : S_.Idx) : padValue i = 0 := by
  show (((0#32 : BitVec 32).toInt : ℝ) : EReal) = 0
  rw [BitVec.toInt_zero]
  norm_num

/-- A real column of the padded feature matrix is the feature matrix's. -/
theorem padX_real (x0 : FVec Ideal S200000x117 .f32) (p : Fin 200000) (j : Fin 117) :
    padX x0 (ix2 p ⟨j.val, lt_of_lt_of_le j.isLt (by norm_num : 117 ≤ 128)⟩) = x0 (ix2 p j) := by
  unfold padX
  refine LibPad.pad_apply_of_mem _ _ _ x0 padValue _ _ _ (ix2 p j) fun a => ?_
  match a with
  | ⟨0, _⟩ => show p.val = 0 + p.val * (0 + 1); omega
  | ⟨1, _⟩ => show j.val = 0 + j.val * (0 + 1); omega

/-- An appended column of the padded feature matrix is zero. -/
theorem padX_zero (x0 : FVec Ideal S200000x117 .f32) (p : Fin 200000) (j : Fin 128) (hj : 117 ≤ j.val) :
    padX x0 (ix2 p j) = 0 := by
  unfold padX
  refine (LibPad.pad_apply_of_not_mem _ _ _ x0 padValue _ _ (ix2 p j) (1 : Fin 2) ?_).trans (padValue_apply _)
  show 117 ≤ (j.val - 0) / (0 + 1)
  rw [Nat.sub_zero, Nat.div_one]
  exact hj

/-- A real row of the padded input weights is the input weights'. -/
theorem padW_real (x2 : FVec Ideal S117x128 .f32) (j : Fin 117) (q : Fin 128) :
    padW x2 (ix2 ⟨j.val, lt_of_lt_of_le j.isLt (by norm_num : 117 ≤ 128)⟩ q) = x2 (ix2 j q) := by
  unfold padW
  refine LibPad.pad_apply_of_mem _ _ _ x2 padValue _ _ _ (ix2 j q) fun a => ?_
  match a with
  | ⟨0, _⟩ => show j.val = 0 + j.val * (0 + 1); omega
  | ⟨1, _⟩ => show q.val = 0 + q.val * (0 + 1); omega

/-- The bias row reads the bias vector. -/
theorem row_apply (b : FVec Ideal S128 .f32) (q : Fin 128) : row b (ix2 (0 : Fin 1) q) = b (ix1 q) :=
  shapeCast_a_1a_apply b _ 0 q

/-- The scale column reads the scale vector. -/
theorem invCol_apply (v3 : (⟨S600000, .i32⟩ : BufTy).Contents (Elt Ideal)) (p : Fin 200000) :
    invCol v3 (ix2 p (0 : Fin 1)) = inv v3 (ix1 p) :=
  shapeCast_a_a1_apply (inv v3) _ p 0

/-- The projection over the padded operands, the bias read through its row, is the projection of the arguments. -/
theorem projRow_pad (x0 : FVec Ideal S200000x117 .f32) (x2 : FVec Ideal S117x128 .f32) (x3 : FVec Ideal S128 .f32) :
    SageLayer.projRow (padX x0) (padW x2) (row x3) = SageLayer.proj x0 x2 x3 := by
  funext i
  obtain ⟨p, q, rfl⟩ : ∃ (p : Fin 200000) (q : Fin 128), i = ix2 p q := ⟨i 0, i 1, eq_ix2 i⟩
  rw [SageLayer.projRow_ix2, SageLayer.proj_ix2, row_apply]
  unfold SageLayer.projAt
  rw [SageLayer.rowDot_padded (by norm_num : 117 ≤ 128) x0 x2 (padX x0) (padW x2) p q (fun j => padX_real x0 p j)
    (fun j => padW_real x2 j q) (fun j hj => padX_zero x0 p j hj)]

end Cert.KernelIdeal.HostFns

end
-- ==== Proof.LibSageRows.lean ====
/-
  An entry of a dense layer depends on its left operands only through one row and on its weight matrices only
  through one column. Entry (p, q) of tanh(x·w + b) and of h·ws + (agg scaled)·wn + b, computed from arrays that
  agree with the given ones along row p (at row p' of arrays with another number of rows) and along column q, is the
  same value: what a kernel that works on a block of rows needs against a layer stated on the whole matrix.
-/
import proofs.«170630_j57097295233646_2_alg».proof.Proof.LibSageLayer

open scoped BigOperators

noncomputable section

namespace Idealize.ShloMosaic.SageLayer

open Idealize.ShloMosaic Idealize.ShloMosaic.ValueIdx

variable {n n' k d e : ℕ}

theorem rowDot_congr (x : FVec Ideal ⟨2, ![n, k]⟩ .f32) (x' : FVec Ideal ⟨2, ![n', k]⟩ .f32)
    (w w' : FVec Ideal ⟨2, ![k, d]⟩ .f32) (p : Fin n) (p' : Fin n') (q q' : Fin d)
    (hx : ∀ j : Fin k, x' (ix2 p' j) = x (ix2 p j)) (hw : ∀ j : Fin k, w' (ix2 j q') = w (ix2 j q)) :
    rowDot x' w' p' q' = rowDot x w p q := by
  unfold rowDot
  exact Finset.sum_congr rfl fun j _ => by rw [hx j, hw j]

theorem scaledRowDot_congr (x : FVec Ideal ⟨2, ![n, k]⟩ .f32) (x' : FVec Ideal ⟨2, ![n', k]⟩ .f32) (s s' : EReal)
    (w w' : FVec Ideal ⟨2, ![k, d]⟩ .f32) (p : Fin n) (p' : Fin n') (q q' : Fin d)
    (hx : ∀ j : Fin k, x' (ix2 p' j) = x (ix2 p j)) (hs : s' = s) (hw : ∀ j : Fin k, w' (ix2 j q') = w (ix2 j q)) :
    scaledRowDot x' s' w' p' q' = scaledRowDot x s w p q := by
  unfold scaledRowDot
  exact Finset.sum_congr rfl fun j _ => by rw [hx j, hw j, hs]

theorem projAt_congr (x : FVec Ideal ⟨2, ![n, k]⟩ .f32) (x' : FVec Ideal ⟨2, ![n', k]⟩ .f32)
    (w w' : FVec Ideal ⟨2, ![k, d]⟩ .f32) (bq bq' : EReal) (p : Fin n) (p' : Fin n') (q q' : Fin d)
    (hx : ∀ j : Fin k, x' (ix2 p' j) = x (ix2 p j)) (hw : ∀ j : Fin k, w' (ix2 j q') = w (ix2 j q)) (hb : bq' = bq) :
    projAt x' w' bq' p' q' = projAt x w bq p q := by
  unfold projAt
  rw [rowDot_congr x x' w w' p p' q q' hx hw, hb]

theorem combineAt_congr (h agg : FVec Ideal ⟨2, ![n, d]⟩ .f32) (h' agg' : FVec Ideal ⟨2, ![n', d]⟩ .f32) (s s' : EReal)
    (ws wn ws' wn' : FVec Ideal ⟨2, ![d, e]⟩ .f32) (bq bq' : EReal) (p : Fin n) (p' : Fin n') (q q' : Fin e)
    (hh : ∀ j : Fin d, h' (ix2 p' j) = h (ix2 p j)) (ha : ∀ j : Fin d, agg' (ix2 p' j) = agg (ix2 p j)) (hs : s' = s)
    (hws : ∀ j : Fin d, ws' (ix2 j q') = ws (ix2 j q)) (hwn : ∀ j : Fin d, wn' (ix2 j q') = wn (ix2 j q))
    (hb : bq' = bq) :
    combineAt h' agg' s' ws' wn' bq' p' q' = combineAt h agg s ws wn bq p q := by
  unfold combineAt
  rw [rowDot_congr h h' ws ws' p p' q q' hh hws, scaledRowDot_congr agg agg' s s' wn wn' p p' q q' ha hs hwn, hb]

end Idealize.ShloMosaic.SageLayer

end
-- ==== Proof.LibMatmul.lean ====
/-
  A matrix product of two rank-2 arrays read at coordinates. For dimension numbers that contract the left operand's
  second axis against the right operand's first, keep the left rows and the right columns and have no batch axis,
  the entry (p, q) of the product is the sum over the contracted position j of lhs (p, j) · rhs (j, q): the left
  operand is read along row p, the right operand along column q. Both the matrix unit's product into a zero
  accumulator and the host's dot product are that sum on the extended reals.
-/
import Idealize.ShloMosaic.Lib.ValueIdx
import Idealize.ShloMosaic.PureOps.Ideal.Laws

open scoped BigOperators

namespace Idealize.ShloMosaic.ValueIdx

open Idealize.ShloMosaic

section RowsByColumns

variable {a k b : ℕ} (d : DotDims ⟨2, ![a, k]⟩ ⟨2, ![k, b]⟩ ⟨2, ![a, b]⟩)

/-- One contracted axis. -/
theorem dot_contr_rank (hl : d.lhsContracting = [1]) : d.contr.rank = 1 := by
  rw [d.rank_contr, hl]; rfl

/-- Its extent is the shared inner extent k. -/
theorem dot_contr_size (hl : d.lhsContracting = [1]) :
    d.contr.size ⟨0, by rw [dot_contr_rank d hl]; exact Nat.one_pos⟩ = k := by
  rw [d.size_contr 0 (by rw [hl]; exact Nat.one_pos), List.getElem_of_eq hl]
  rfl

/-- The contraction index is its one coordinate. -/
noncomputable def dotEquiv (hl : d.lhsContracting = [1]) : d.contr.Idx ≃ Fin k :=
  contrEquiv1 d k (dot_contr_rank d hl) (dot_contr_size d hl)

/-- The left operand is read at row p, contracted position j. -/
theorem dot_lhsIdx_ix2 (hl : d.lhsContracting = [1]) (hln : d.lhsNonContracting = [0]) (hlb : d.lhsBatch = [])
    (p : Fin a) (q : Fin b) (j : Fin k) :
    d.lhsIdx (ix2 p q) ((dotEquiv d hl).symm j) = ix2 p j := by
  funext ax
  apply Fin.ext
  match ax with
  | ⟨0, _⟩ =>
    have hnb : (0 : Fin 2) ∉ d.lhsBatch := by rw [hlb]; exact List.not_mem_nil
    have hn : (0 : Fin 2) ∈ d.lhsNonContracting := by rw [hln]; exact List.mem_singleton.mpr rfl
    show (d.lhsIdx (ix2 p q) ((dotEquiv d hl).symm j) (0 : Fin 2)).val = p.val
    unfold DotDims.lhsIdx
    rw [dif_neg hnb, dif_pos hn]
    simp only [Fin.val_cast]
    have key : ∀ (n : ℕ) (hn : n < (⟨2, ![a, b]⟩ : Shape).rank), n = 0 → ((ix2 p q) ⟨n, hn⟩).val = p.val :=
      fun n hn h => by subst h; rfl
    exact key _ _ (by simp [hlb, hln])
  | ⟨1, _⟩ =>
    show (d.lhsIdx (ix2 p q) ((dotEquiv d hl).symm j) (1 : Fin 2)).val = j.val
    rw [d.lhsIdx_val_of_single hl]
    exact contrEquiv1_symm_val d k (dot_contr_rank d hl) (dot_contr_size d hl) j

/-- The right operand is read at contracted position j, column q. -/
theorem dot_rhsIdx_ix2 (hl : d.lhsContracting = [1]) (hr : d.rhsContracting = [0]) (hln : d.lhsNonContracting = [0])
    (hrn : d.rhsNonContracting = [1]) (hlb : d.lhsBatch = []) (hrb : d.rhsBatch = [])
    (p : Fin a) (q : Fin b) (j : Fin k) :
    d.rhsIdx (ix2 p q) ((dotEquiv d hl).symm j) = ix2 j q := by
  funext ax
  apply Fin.ext
  match ax with
  | ⟨0, _⟩ =>
    show (d.rhsIdx (ix2 p q) ((dotEquiv d hl).symm j) (0 : Fin 2)).val = j.val
    rw [d.rhsIdx_val_of_single hr]
    exact contrEquiv1_symm_val d k (dot_contr_rank d hl) (dot_contr_size d hl) j
  | ⟨1, _⟩ =>
    have hnb : (1 : Fin 2) ∉ d.rhsBatch := by rw [hrb]; exact List.not_mem_nil
    have hn : (1 : Fin 2) ∈ d.rhsNonContracting := by rw [hrn]; exact List.mem_singleton.mpr rfl
    show (d.rhsIdx (ix2 p q) ((dotEquiv d hl).symm j) (1 : Fin 2)).val = q.val
    unfold DotDims.rhsIdx
    rw [dif_neg hnb, dif_pos hn]
    simp only [Fin.val_cast]
    have key : ∀ (n : ℕ) (hn : n < (⟨2, ![a, b]⟩ : Shape).rank), n = 1 → ((ix2 p q) ⟨n, hn⟩).val = q.val :=
      fun n hn h => by subst h; rfl
    exact key _ _ (by simp [hlb, hln, hrn])

variable {φ₁ φ₂ : FTy}

/-- The matrix unit's product into the zero accumulator, at (p, q). -/
theorem matmul_zero_ix2 (hl : d.lhsContracting = [1]) (hr : d.rhsContracting = [0]) (hln : d.lhsNonContracting = [0])
    (hrn : d.rhsNonContracting = [1]) (hlb : d.lhsBatch = []) (hrb : d.rhsBatch = [])
    (prec : Option ContractPrecision) (lhs : FVec Ideal ⟨2, ![a, k]⟩ φ₁) (rhs : FVec Ideal ⟨2, ![k, b]⟩ φ₂)
    (p : Fin a) (q : Fin b) :
    FloatOps.matmul d prec lhs rhs (constant ⟨2, ![a, b]⟩ .f32 0x00000000#32) (ix2 p q)
      = ∑ j : Fin k, lhs (ix2 p j) * rhs (ix2 j q) := by
  rw [Ideal.matmul_constant_zero_apply, ← Equiv.sum_comp (dotEquiv d hl).symm]
  refine Finset.sum_congr rfl fun j _ => ?_
  rw [dot_lhsIdx_ix2 d hl hln hlb p q j, dot_rhsIdx_ix2 d hl hr hln hrn hlb hrb p q j]

/-- The host's dot product, at (p, q). -/
theorem dotGeneral_ix2 (hl : d.lhsContracting = [1]) (hr : d.rhsContracting = [0]) (hln : d.lhsNonContracting = [0])
    (hrn : d.rhsNonContracting = [1]) (hlb : d.lhsBatch = []) (hrb : d.rhsBatch = [])
    (prec : Option ContractPrecision) (sched : HostSchedule) (lhs : FVec Ideal ⟨2, ![a, k]⟩ φ₁) (rhs : FVec Ideal ⟨2, ![k, b]⟩ φ₂)
    (p : Fin a) (q : Fin b) :
    FloatOps.dotGeneral d prec sched lhs rhs (ix2 p q) = ∑ j : Fin k, lhs (ix2 p j) * rhs (ix2 j q) := by
  rw [Ideal.dotGeneral_apply, ← Equiv.sum_comp (dotEquiv d hl).symm]
  refine Finset.sum_congr rfl fun j _ => ?_
  rw [dot_lhsIdx_ix2 d hl hln hlb p q j, dot_rhsIdx_ix2 d hl hr hln hrn hlb hrb p q j]

end RowsByColumns

end Idealize.ShloMosaic.ValueIdx
-- ==== Proof.KernelBlocks0.lean ====
/-
  Region 0 of the idealized kernel, read as one whole-array function. The region's grid has 25 points; point t holds
  rows 8000·t … 8000·t + 7999 of the node matrix. At a point the body takes that block of rows of the feature matrix
  and the whole weight matrix and bias row, and stores tanh(x·w + b) for those rows. An entry (p, q) of that
  projection depends on x only through row p, so the block a point writes back is the block of the projection stated
  on the whole arrays; the 25 blocks cover every row, so the array the region leaves is the projection of the arrays it
  found.
-/
import proofs.«170630_j57097295233646_2_alg».proof.Proof.Gen.KernelIdeal.Frame
import proofs.«170630_j57097295233646_2_alg».proof.Proof.LibSageLayer
import proofs.«170630_j57097295233646_2_alg».proof.Proof.LibSageRows
import proofs.«170630_j57097295233646_2_alg».proof.Proof.LibMatmul
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Blocks0

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

/-- The body's stored value at row r, column q of the block: the projection's entry from the blocks the body loaded. -/
theorem pay_ix2 (x0 : Vec Ideal S8000x128 .f32) (x1 : Vec Ideal S128x128 .f32) (x2 : Vec Ideal S1x128 .f32)
    (r : Fin 8000) (q : Fin 128) :
    k0_pay1 (F := Ideal) x0 x1 x2 (ix2 r q) = SageLayer.projAt x0 x1 (x2 (ix2 (0 : Fin 1) q)) r q := by
  unfold k0_pay1
  simp only [shapeCast_self]
  unfold SageLayer.projAt
  refine congrArg Ideal.tanh (congrArg₂ (· + ·) ?_ ?_)
  · exact matmul_zero_ix2 dot_S8000x128_S128x128_S8000x128_1_0_0_1_n_n rfl rfl rfl rfl rfl rfl none x0 x1 r q
  · exact broadcastTo_1b_ab_apply x2 _ r q

theorem hz : (![0, 0] : Fin 2 → Nat) = fun _ => 0 := funext fun a => by fin_cases a <;> rfl

/-- The block positions over the grid: the row-tiled windows sit at block row t, the others at the origin. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

variable (V : (c : Dev nD) → (b : Ref sig .tc) → Buf (Elt Ideal) ((c : Thread nD τ).loc b))

/-- The projection of the arrays the region finds. -/
def G (c : Dev nD) : FVec Ideal S200000x128 .f32 :=
  SageLayer.projRow (V c main_v13) (V c main_v14) (V c main_v15)

/-- What point t writes back is block t of the projection of the arrays the region finds. -/
theorem flushed_eq (c : Dev nD) (t : Fin cfg0.N) :
    (dat0 V c).flushed 3 t = ((cfg0.win 3).blk t).view.read (Elt Ideal) (G V c) := by
  show (cfg0.win 3).cut (grid0.coords t) ((dat0 V c).after 3 t) = _
  rw [after0_3]
  unfold out0_3
  rw [View.canon_unit_zero hz]
  simp only [View.ld_unit_zero (S := S8000x128) hz, View.ld_unit_zero (S := S128x128) hz,
    View.ld_unit_zero (S := S1x128) hz]
  obtain ⟨e00, e01, e10, e11, e20, e21, e30, e31⟩ := idx_facts t
  funext y
  obtain ⟨r, q, rfl⟩ : ∃ (r : Fin 8000) (q : Fin 128), y = ix2 r q := ⟨y 0, y 1, eq_ix2 y⟩
  refine (pay_ix2 _ _ _ r q).trans ?_
  show _ = G V c (((cfg0.win 3).blk t).view.emb (ix2 r q))
  unfold G
  refine SageLayer.projAt_congr _ _ _ _ _ _ _ _ _ _ (fun j => ?_) (fun j => ?_) ?_
  · show V c main_v13 (((cfg0.win 0).blk t).view.emb (ix2 r j)) = V c main_v13 _
    refine congrArg _ (funext fun a => Fin.ext ?_)
    match a with
    | ⟨0, _⟩ => show win0_0.index t (0 : Fin 2) * 8000 + 1 * r.val = win0_3.index t (0 : Fin 2) * 8000 + 1 * r.val; rw [e00, e30]
    | ⟨1, _⟩ => show win0_0.index t (1 : Fin 2) * 128 + 1 * j.val = j.val; rw [e01]; omega
  · show V c main_v14 (((cfg0.win 1).blk t).view.emb (ix2 j q)) = V c main_v14 _
    refine congrArg _ (funext fun a => Fin.ext ?_)
    match a with
    | ⟨0, _⟩ => show win0_1.index t (0 : Fin 2) * 128 + 1 * j.val = j.val; rw [e10]; omega
    | ⟨1, _⟩ => show win0_1.index t (1 : Fin 2) * 128 + 1 * q.val = win0_3.index t (1 : Fin 2) * 128 + 1 * q.val; rw [e11, e31]
  · show V c main_v15 (((cfg0.win 2).blk t).view.emb (ix2 (0 : Fin 1) q)) = V c main_v15 _
    refine congrArg _ (funext fun a => Fin.ext ?_)
    match a with
    | ⟨0, _⟩ => show win0_2.index t (0 : Fin 2) * 1 + 1 * 0 = 0; rw [e20]
    | ⟨1, _⟩ => show win0_2.index t (1 : Fin 2) * 128 + 1 * q.val = win0_3.index t (1 : Fin 2) * 128 + 1 * q.val; rw [e21, e31]

/-- An index of the array is in point t's block iff each coordinate is in the block's range on its axis. -/
theorem mem_blk (t : Fin cfg0.N) (i : S200000x128.Idx) :
    i ∈ ((cfg0.win 3).blk t).view.set ↔ ∀ a : Fin 2, win0_3.index t a * S8000x128.size a ≤ (i a).val
      ∧ (i a).val < win0_3.index t a * S8000x128.size a + S8000x128.size a := by
  show i ∈ ((View.whole main_v16).slice (win0_3.rect t)).set ↔ _
  rw [View.set_slice_whole, Rect.mem_set_unit]
  exact Iff.rfl

/-- Every row lies in some point's block: row p in the block of point p / 8000. -/
theorem cover (i : S200000x128.Idx) :
    ∃ t : Fin cfg0.N, (cfg0.win 3).flush t = true ∧ i ∈ ((cfg0.win 3).blk t).view.set := by
  have hi0 : (i 0).val < 200000 := (i 0).isLt
  have hi1 : (i 1).val < 128 := (i 1).isLt
  have hN : cfg0.N = 25 := N_0
  let t : Fin cfg0.N := ⟨(i 0).val / 8000, by rw [hN]; omega⟩
  obtain ⟨e00, e01, e10, e11, e20, e21, e30, e31⟩ := idx_facts t
  have ht : t.val = (i 0).val / 8000 := rfl
  refine ⟨t, flush0_3 t, ?_⟩
  rw [mem_blk]
  intro a
  match a with
  | ⟨0, _⟩ => show win0_3.index t (0 : Fin 2) * 8000 ≤ (i 0).val ∧ (i 0).val < win0_3.index t (0 : Fin 2) * 8000 + 8000; rw [e30, ht]; omega
  | ⟨1, _⟩ => show win0_3.index t (1 : Fin 2) * 128 ≤ (i 1).val ∧ (i 1).val < win0_3.index t (1 : Fin 2) * 128 + 128; rw [e31]; omega

/-- The array the region leaves is the projection of the arrays it found. -/
theorem final (c : Dev nD) : (dat0 V c).arrAt 3 cfg0.N = G V c :=
  (dat0 V c).arrAt_eq_of_cover 3 (G V c) (fun t _ => flushed_eq V c t) (cover)

end Cert.KernelIdeal.Blocks0

end
-- ==== Proof.KernelFold0.lean ====
/-
  What the kernel's @main carries from its first stretch of host operations through every later stretch and region,
  and the first region's result.

  The first stretch computes, from the edge table, the source and target rows and the per-node scale column; no later
  host operation writes them or the weight arguments, and a region changes only its own output array (the scale column
  is an input window of the three layer regions: its array is left as entered). So at every later boundary these six
  buffers hold the same functions of the arguments. The first region finds the padded feature matrix, the padded input
  weights and the bias row, and leaves tanh(x·w + b) of the arguments.
-/
import proofs.«170630_j57097295233646_2_alg».proof.Proof.Gen.KernelIdeal.Frame
import proofs.«170630_j57097295233646_2_alg».proof.Proof.KernelHost
import proofs.«170630_j57097295233646_2_alg».proof.Proof.KernelPad
import proofs.«170630_j57097295233646_2_alg».proof.Proof.LibSageLayer
import proofs.«170630_j57097295233646_2_alg».proof.Proof.KernelBlocks0
import Idealize.ShloMosaic.Lib.StableHlo.Run
import Idealize.ShloMosaic.Lib.Pipeline.Value

set_option maxRecDepth 16384

noncomputable section

namespace Cert.KernelIdeal.Fold

open Cert.KernelIdeal Cert.KernelIdeal.Gen Cert.KernelIdeal.HostFns
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg) (c : Dev nD)

/-- The buffers every later stretch and region reads as the first stretch left them: the source and target rows of the
    edge table, the per-node scale column, and the stacked weight and bias arguments. -/
structure Carried (X : Valuation τ sig (Elt Ideal)) : Prop where
  v1 : X (Proc.devRef .tc main_v1) = srcRow (m ((c : Thread nD τ).loc main_arg1))
  v3 : X (Proc.devRef .tc main_v3) = dstRow (m ((c : Thread nD τ).loc main_arg1))
  v12 : X (Proc.devRef .tc main_v12) = invCol (dstRow (m ((c : Thread nD τ).loc main_arg1)))
  a4 : X (Proc.devRef .tc main_arg4) = (m ((c : Thread nD τ).loc main_arg4))
  a5 : X (Proc.devRef .tc main_arg5) = (m ((c : Thread nD τ).loc main_arg5))
  a6 : X (Proc.devRef .tc main_arg6) = (m ((c : Thread nD τ).loc main_arg6))

/-- At the first region's entry. -/
theorem carried5 : Carried m c (W5 m ρ c) where
  v1 := by
    show StableHlo.after hostOps0_4 (StableHlo.after hostOps0_3 (StableHlo.after hostOps0_2 (StableHlo.after hostOps0_1 (StableHlo.after hostOps0 (W0 m ρ c))))) (Proc.devRef .tc main_v1) = _
    dsimp only [hostOps0, hostOps0_1, hostOps0_2, hostOps0_3, hostOps0_4]
    after_results
    rfl
  v3 := by
    show StableHlo.after hostOps0_4 (StableHlo.after hostOps0_3 (StableHlo.after hostOps0_2 (StableHlo.after hostOps0_1 (StableHlo.after hostOps0 (W0 m ρ c))))) (Proc.devRef .tc main_v3) = _
    dsimp only [hostOps0, hostOps0_1, hostOps0_2, hostOps0_3, hostOps0_4]
    after_results
    rfl
  v12 := by
    show StableHlo.after hostOps0_4 (StableHlo.after hostOps0_3 (StableHlo.after hostOps0_2 (StableHlo.after hostOps0_1 (StableHlo.after hostOps0 (W0 m ρ c))))) (Proc.devRef .tc main_v12) = _
    dsimp only [hostOps0, hostOps0_1, hostOps0_2, hostOps0_3, hostOps0_4]
    after_results
    rfl
  a4 := by
    show StableHlo.after hostOps0_4 (StableHlo.after hostOps0_3 (StableHlo.after hostOps0_2 (StableHlo.after hostOps0_1 (StableHlo.after hostOps0 (W0 m ρ c))))) (Proc.devRef .tc main_arg4) = _
    dsimp only [hostOps0, hostOps0_1, hostOps0_2, hostOps0_3, hostOps0_4]
    after_results
  a5 := by
    show StableHlo.after hostOps0_4 (StableHlo.after hostOps0_3 (StableHlo.after hostOps0_2 (StableHlo.after hostOps0_1 (StableHlo.after hostOps0 (W0 m ρ c))))) (Proc.devRef .tc main_arg5) = _
    dsimp only [hostOps0, hostOps0_1, hostOps0_2, hostOps0_3, hostOps0_4]
    after_results
  a6 := by
    show StableHlo.after hostOps0_4 (StableHlo.after hostOps0_3 (StableHlo.after hostOps0_2 (StableHlo.after hostOps0_1 (StableHlo.after hostOps0 (W0 m ρ c))))) (Proc.devRef .tc main_arg6) = _
    dsimp only [hostOps0, hostOps0_1, hostOps0_2, hostOps0_3, hostOps0_4]
    after_results

/-- The first region writes none of them. -/
theorem carried6 : Carried m c (W6 m ρ c) :=
  have h := carried5 m ρ c
  ⟨(W6_of_ne m ρ c main_v1 (by decide)).trans h.v1, (W6_of_ne m ρ c main_v3 (by decide)).trans h.v3,
   (W6_of_ne m ρ c main_v12 (by decide)).trans h.v12, (W6_of_ne m ρ c main_arg4 (by decide)).trans h.a4,
   (W6_of_ne m ρ c main_arg5 (by decide)).trans h.a5, (W6_of_ne m ρ c main_arg6 (by decide)).trans h.a6⟩

/-- The first region leaves tanh(x·w + b) of the arguments. -/
theorem proj0 : W6 m ρ c (Proc.devRef .tc main_v16) = SageLayer.proj (m ((c : Thread nD τ).loc main_arg0)) (m ((c : Thread nD τ).loc main_arg2)) (m ((c : Thread nD τ).loc main_arg3)) := by
  have e13 : V5 m ρ c main_v13 = padX (m ((c : Thread nD τ).loc main_arg0)) := by
    show StableHlo.after hostOps0_4 (StableHlo.after hostOps0_3 (StableHlo.after hostOps0_2 (StableHlo.after hostOps0_1 (StableHlo.after hostOps0 (W0 m ρ c))))) (Proc.devRef .tc main_v13) = _
    dsimp only [hostOps0, hostOps0_1, hostOps0_2, hostOps0_3, hostOps0_4]
    after_results
    rfl
  have e14 : V5 m ρ c main_v14 = padW (m ((c : Thread nD τ).loc main_arg2)) := by
    show StableHlo.after hostOps0_4 (StableHlo.after hostOps0_3 (StableHlo.after hostOps0_2 (StableHlo.after hostOps0_1 (StableHlo.after hostOps0 (W0 m ρ c))))) (Proc.devRef .tc main_v14) = _
    dsimp only [hostOps0, hostOps0_1, hostOps0_2, hostOps0_3, hostOps0_4]
    after_results
    rfl
  have e15 : V5 m ρ c main_v15 = row (m ((c : Thread nD τ).loc main_arg3)) := by
    show StableHlo.after hostOps0_4 (StableHlo.after hostOps0_3 (StableHlo.after hostOps0_2 (StableHlo.after hostOps0_1 (StableHlo.after hostOps0 (W0 m ρ c))))) (Proc.devRef .tc main_v15) = _
    dsimp only [hostOps0, hostOps0_1, hostOps0_2, hostOps0_3, hostOps0_4]
    after_results
    rfl
  have key : W6 m ρ c (Proc.devRef .tc main_v16) = (dat0 (V5 m ρ) c).arrAt 3 cfg0.N := W6_arr m ρ c 3
  rw [key, Blocks0.final (V5 m ρ) c]
  unfold Blocks0.G
  rw [e13, e14, e15, projRow_pad]

end Cert.KernelIdeal.Fold

end
-- ==== Proof.KernelBlocks1.lean ====
/-
  Region 1 of the idealized kernel, read as one whole-array function. The region's grid has 25 points; point t
  holds rows 8000·t … 8000·t + 7999 of the node matrix. At a point the body takes the block of rows of the layer's
  input h and of the aggregate, the same rows of the per-node scale column, and the whole weight matrices and bias
  row, and stores h·ws + (agg·scale)·wn + b, rectified for those rows. Because an entry (p, q) of that layer depends on h
  and on the aggregate only through row p, the block a point writes back is the block of the layer stated on the
  whole arrays; the 25 blocks cover every row, so the array the region leaves is the layer of the arrays it found.
-/
import proofs.«170630_j57097295233646_2_alg».proof.Proof.Gen.KernelIdeal.Frame
import proofs.«170630_j57097295233646_2_alg».proof.Proof.LibSageLayer
import proofs.«170630_j57097295233646_2_alg».proof.Proof.LibSageRows
import proofs.«170630_j57097295233646_2_alg».proof.Proof.LibMatmul
import proofs.«170630_j57097295233646_2_alg».proof.Proof.LibColumns
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Blocks1

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

/-- The body's stored value at row r, column q of the block: the layer's entry from the blocks the body loaded. -/
theorem pay_ix2 (x0 x1 : Vec Ideal S8000x128 .f32) (x2 : Vec Ideal S8000x1 .f32) (x3 x4 : Vec Ideal S128x128 .f32)
    (x5 : Vec Ideal S1x128 .f32) (r : Fin 8000) (q : Fin 128) :
    k1_pay1 (F := Ideal) x0 x1 x2 x3 x4 x5 (ix2 r q)
      = max (SageLayer.combineAt x0 x1 (x2 (ix2 r (0 : Fin 1))) x3 x4 (x5 (ix2 (0 : Fin 1) q)) r q)
          (Ideal.ofBits .f32 0x00000000#32) := by
  unfold k1_pay1
  simp only [shapeCast_self]
  refine congrArg₂ max ?_ (Ideal.ofBits_def _)
  unfold SageLayer.combineAt
  refine congrArg₂ (· + ·) (congrArg₂ (· + ·) ?_ ?_) ?_
  · exact matmul_zero_ix2 dot_S8000x128_S128x128_S8000x128_1_0_0_1_n_n rfl rfl rfl rfl rfl rfl none x0 x3 r q
  · refine (matmul_zero_ix2 dot_S8000x128_S128x128_S8000x128_1_0_0_1_n_n rfl rfl rfl rfl rfl rfl none _ x4 r q).trans ?_
    unfold SageLayer.scaledRowDot
    refine Finset.sum_congr rfl fun j _ => ?_
    rw [mulf_apply, broadcastTo_a1_ab_apply]
  · exact broadcastTo_1b_ab_apply x5 _ r q

theorem hz : (![0, 0] : Fin 2 → Nat) = fun _ => 0 := funext fun a => by fin_cases a <;> rfl

/-- The block positions over the grid: the row-tiled windows sit at block row t, the others at the origin. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

variable (V : (c : Dev nD) → (b : Ref sig .tc) → Buf (Elt Ideal) ((c : Thread nD τ).loc b))

/-- The layer of the arrays the region finds. -/
def G (c : Dev nD) : FVec Ideal S200000x128 .f32 :=
  SageLayer.rectify (Ideal.ofBits .f32 0x00000000#32)
    (SageLayer.combineCol (V c main_v16) (V c main_v26) (V c main_v12) (V c main_v28) (V c main_v30) (V c main_v33))

/-- What point t writes back is block t of the layer of the arrays the region finds. -/
theorem flushed_eq (c : Dev nD) (t : Fin cfg1.N) :
    (dat1 V c).flushed 6 t = ((cfg1.win 6).blk t).view.read (Elt Ideal) (G V c) := by
  show (cfg1.win 6).cut (grid1.coords t) ((dat1 V c).after 6 t) = _
  rw [after1_6]
  unfold out1_6
  rw [View.canon_unit_zero hz]
  simp only [View.ld_unit_zero (S := S8000x128) hz, View.ld_unit_zero (S := S8000x1) hz,
    View.ld_unit_zero (S := S128x128) hz, View.ld_unit_zero (S := S1x128) hz]
  obtain ⟨e00, e01, e10, e11, e20, e21, e30, e31, e40, e41, e50, e51, e60, e61⟩ := idx_facts t
  funext y
  obtain ⟨r, q, rfl⟩ : ∃ (r : Fin 8000) (q : Fin 128), y = ix2 r q := ⟨y 0, y 1, eq_ix2 y⟩
  refine (pay_ix2 _ _ _ _ _ _ r q).trans ?_
  show _ = G V c (((cfg1.win 6).blk t).view.emb (ix2 r q))
  unfold G
  refine congrArg₂ max ?_ rfl
  refine SageLayer.combineAt_congr _ _ _ _ _ _ _ _ _ _ _ _ _ _ _ _ (fun j => ?_) (fun j => ?_) ?_ (fun j => ?_) (fun j => ?_) ?_
  · show V c main_v16 (((cfg1.win 0).blk t).view.emb (ix2 r j)) = V c main_v16 _
    refine congrArg _ (funext fun a => Fin.ext ?_)
    match a with
    | ⟨0, _⟩ => show win1_0.index t (0 : Fin 2) * 8000 + 1 * r.val = win1_6.index t (0 : Fin 2) * 8000 + 1 * r.val; rw [e00, e60]
    | ⟨1, _⟩ => show win1_0.index t (1 : Fin 2) * 128 + 1 * j.val = j.val; rw [e01]; omega
  · show V c main_v26 (((cfg1.win 1).blk t).view.emb (ix2 r j)) = V c main_v26 _
    refine congrArg _ (funext fun a => Fin.ext ?_)
    match a with
    | ⟨0, _⟩ => show win1_1.index t (0 : Fin 2) * 8000 + 1 * r.val = win1_6.index t (0 : Fin 2) * 8000 + 1 * r.val; rw [e10, e60]
    | ⟨1, _⟩ => show win1_1.index t (1 : Fin 2) * 128 + 1 * j.val = j.val; rw [e11]; omega
  · show V c main_v12 (((cfg1.win 2).blk t).view.emb (ix2 r (0 : Fin 1))) = V c main_v12 _
    refine congrArg _ (funext fun a => Fin.ext ?_)
    match a with
    | ⟨0, _⟩ => show win1_2.index t (0 : Fin 2) * 8000 + 1 * r.val = win1_6.index t (0 : Fin 2) * 8000 + 1 * r.val; rw [e20, e60]
    | ⟨1, _⟩ => show win1_2.index t (1 : Fin 2) * 1 + 1 * 0 = 0; rw [e21]
  · show V c main_v28 (((cfg1.win 3).blk t).view.emb (ix2 j q)) = V c main_v28 _
    refine congrArg _ (funext fun a => Fin.ext ?_)
    match a with
    | ⟨0, _⟩ => show win1_3.index t (0 : Fin 2) * 128 + 1 * j.val = j.val; rw [e30]; omega
    | ⟨1, _⟩ => show win1_3.index t (1 : Fin 2) * 128 + 1 * q.val = win1_6.index t (1 : Fin 2) * 128 + 1 * q.val; rw [e31, e61]
  · show V c main_v30 (((cfg1.win 4).blk t).view.emb (ix2 j q)) = V c main_v30 _
    refine congrArg _ (funext fun a => Fin.ext ?_)
    match a with
    | ⟨0, _⟩ => show win1_4.index t (0 : Fin 2) * 128 + 1 * j.val = j.val; rw [e40]; omega
    | ⟨1, _⟩ => show win1_4.index t (1 : Fin 2) * 128 + 1 * q.val = win1_6.index t (1 : Fin 2) * 128 + 1 * q.val; rw [e41, e61]
  · show V c main_v33 (((cfg1.win 5).blk t).view.emb (ix2 (0 : Fin 1) q)) = V c main_v33 _
    refine congrArg _ (funext fun a => Fin.ext ?_)
    match a with
    | ⟨0, _⟩ => show win1_5.index t (0 : Fin 2) * 1 + 1 * 0 = 0; rw [e50]
    | ⟨1, _⟩ => show win1_5.index t (1 : Fin 2) * 128 + 1 * q.val = win1_6.index t (1 : Fin 2) * 128 + 1 * q.val; rw [e51, e61]

/-- An index of the array is in point t's block iff each coordinate is in the block's range on its axis. -/
theorem mem_blk (t : Fin cfg1.N) (i : S200000x128.Idx) :
    i ∈ ((cfg1.win 6).blk t).view.set ↔ ∀ a : Fin 2, win1_6.index t a * S8000x128.size a ≤ (i a).val
      ∧ (i a).val < win1_6.index t a * S8000x128.size a + S8000x128.size a := by
  show i ∈ ((View.whole main_v34).slice (win1_6.rect t)).set ↔ _
  rw [View.set_slice_whole, Rect.mem_set_unit]
  exact Iff.rfl

/-- Every row lies in some point's block: row p in the block of point p / 8000. -/
theorem cover (i : S200000x128.Idx) :
    ∃ t : Fin cfg1.N, (cfg1.win 6).flush t = true ∧ i ∈ ((cfg1.win 6).blk t).view.set := by
  have hi0 : (i 0).val < 200000 := (i 0).isLt
  have hi1 : (i 1).val < 128 := (i 1).isLt
  have hN : cfg1.N = 25 := N_1
  let t : Fin cfg1.N := ⟨(i 0).val / 8000, by rw [hN]; omega⟩
  obtain ⟨e00, e01, e10, e11, e20, e21, e30, e31, e40, e41, e50, e51, e60, e61⟩ := idx_facts t
  have ht : t.val = (i 0).val / 8000 := rfl
  refine ⟨t, flush1_6 t, ?_⟩
  rw [mem_blk]
  intro a
  match a with
  | ⟨0, _⟩ => show win1_6.index t (0 : Fin 2) * 8000 ≤ (i 0).val ∧ (i 0).val < win1_6.index t (0 : Fin 2) * 8000 + 8000; rw [e60, ht]; omega
  | ⟨1, _⟩ => show win1_6.index t (1 : Fin 2) * 128 ≤ (i 1).val ∧ (i 1).val < win1_6.index t (1 : Fin 2) * 128 + 128; rw [e61]; omega

/-- The array the region leaves is the layer of the arrays it found. -/
theorem final (c : Dev nD) : (dat1 V c).arrAt 6 cfg1.N = G V c :=
  (dat1 V c).arrAt_eq_of_cover 6 (G V c) (fun t _ => flushed_eq V c t) (cover)

end Cert.KernelIdeal.Blocks1

end
-- ==== Proof.KernelFold1.lean ====
/-
  Layer 1 of the kernel: the stretch of host operations before region 1 and the region itself.

  The stretch gathers the source rows of the layer's input h and adds them onto their targets (the aggregate), and cuts
  slab 0 out of the stacked weights and biases; it writes none of the carried buffers and not h. The region then finds
  h, the aggregate, the scale column, the two weight matrices and the bias row, and leaves the layer of them, rectified; it
  changes no other array. Read through the scale column and the bias row, that is the layer stated on the vectors.
-/
import proofs.«170630_j57097295233646_2_alg».proof.Proof.Gen.KernelIdeal.Frame
import proofs.«170630_j57097295233646_2_alg».proof.Proof.KernelHost
import proofs.«170630_j57097295233646_2_alg».proof.Proof.KernelPad
import proofs.«170630_j57097295233646_2_alg».proof.Proof.LibSageLayer
import proofs.«170630_j57097295233646_2_alg».proof.Proof.KernelFold0
import proofs.«170630_j57097295233646_2_alg».proof.Proof.KernelBlocks1
import Idealize.ShloMosaic.Lib.StableHlo.Run
import Idealize.ShloMosaic.Lib.Pipeline.Value

set_option maxRecDepth 16384

noncomputable section

namespace Cert.KernelIdeal.Fold

open Cert.KernelIdeal Cert.KernelIdeal.Gen Cert.KernelIdeal.HostFns
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg) (c : Dev nD)

/-! The stretch before region 1, buffer by buffer: what it leaves unwritten, and what it computes from what. -/

theorem keep1_main_v1 : W7 m ρ c (Proc.devRef .tc main_v1) = W6 m ρ c (Proc.devRef .tc main_v1) := by
  show StableHlo.after hostOps1 (W6 m ρ c) (Proc.devRef .tc main_v1) = _
  generalize W6 m ρ c = X
  dsimp only [hostOps1]
  after_results

theorem keep1_main_v3 : W7 m ρ c (Proc.devRef .tc main_v3) = W6 m ρ c (Proc.devRef .tc main_v3) := by
  show StableHlo.after hostOps1 (W6 m ρ c) (Proc.devRef .tc main_v3) = _
  generalize W6 m ρ c = X
  dsimp only [hostOps1]
  after_results

theorem keep1_main_v12 : W7 m ρ c (Proc.devRef .tc main_v12) = W6 m ρ c (Proc.devRef .tc main_v12) := by
  show StableHlo.after hostOps1 (W6 m ρ c) (Proc.devRef .tc main_v12) = _
  generalize W6 m ρ c = X
  dsimp only [hostOps1]
  after_results

theorem keep1_main_arg4 : W7 m ρ c (Proc.devRef .tc main_arg4) = W6 m ρ c (Proc.devRef .tc main_arg4) := by
  show StableHlo.after hostOps1 (W6 m ρ c) (Proc.devRef .tc main_arg4) = _
  generalize W6 m ρ c = X
  dsimp only [hostOps1]
  after_results

theorem keep1_main_arg5 : W7 m ρ c (Proc.devRef .tc main_arg5) = W6 m ρ c (Proc.devRef .tc main_arg5) := by
  show StableHlo.after hostOps1 (W6 m ρ c) (Proc.devRef .tc main_arg5) = _
  generalize W6 m ρ c = X
  dsimp only [hostOps1]
  after_results

theorem keep1_main_arg6 : W7 m ρ c (Proc.devRef .tc main_arg6) = W6 m ρ c (Proc.devRef .tc main_arg6) := by
  show StableHlo.after hostOps1 (W6 m ρ c) (Proc.devRef .tc main_arg6) = _
  generalize W6 m ρ c = X
  dsimp only [hostOps1]
  after_results

theorem keep1_main_v16 : W7 m ρ c (Proc.devRef .tc main_v16) = W6 m ρ c (Proc.devRef .tc main_v16) := by
  show StableHlo.after hostOps1 (W6 m ρ c) (Proc.devRef .tc main_v16) = _
  generalize W6 m ρ c = X
  dsimp only [hostOps1]
  after_results

set_option maxHeartbeats 2000000 in
theorem read1_agg : W7 m ρ c (Proc.devRef .tc main_v26) = agg (W6 m ρ c (Proc.devRef .tc main_v1))
    (W6 m ρ c (Proc.devRef .tc main_v3)) (W6 m ρ c (Proc.devRef .tc main_v16)) := by
  show StableHlo.after hostOps1 (W6 m ρ c) (Proc.devRef .tc main_v26) = _
  generalize W6 m ρ c = X
  dsimp only [hostOps1]
  after_results
  rfl

theorem read1_ws : W7 m ρ c (Proc.devRef .tc main_v28) = mat0 (W6 m ρ c (Proc.devRef .tc main_arg4)) := by
  show StableHlo.after hostOps1 (W6 m ρ c) (Proc.devRef .tc main_v28) = _
  generalize W6 m ρ c = X
  dsimp only [hostOps1]
  after_results
  rfl

theorem read1_wn : W7 m ρ c (Proc.devRef .tc main_v30) = mat0 (W6 m ρ c (Proc.devRef .tc main_arg5)) := by
  show StableHlo.after hostOps1 (W6 m ρ c) (Proc.devRef .tc main_v30) = _
  generalize W6 m ρ c = X
  dsimp only [hostOps1]
  after_results
  rfl

theorem read1_b : W7 m ρ c (Proc.devRef .tc main_v33) = row (vec0 (W6 m ρ c (Proc.devRef .tc main_arg6))) := by
  show StableHlo.after hostOps1 (W6 m ρ c) (Proc.devRef .tc main_v33) = _
  generalize W6 m ρ c = X
  dsimp only [hostOps1]
  after_results
  rfl

/-- The stretch before region 1 writes none of the carried buffers. -/
theorem carried7 (h : Carried m c (W6 m ρ c)) : Carried m c (W7 m ρ c) :=
  ⟨(keep1_main_v1 m ρ c).trans h.v1, (keep1_main_v3 m ρ c).trans h.v3, (keep1_main_v12 m ρ c).trans h.v12,
   (keep1_main_arg4 m ρ c).trans h.a4, (keep1_main_arg5 m ρ c).trans h.a5, (keep1_main_arg6 m ρ c).trans h.a6⟩

/-- Region 1 changes none of them: the scale column is an input window's array, the others are not its arrays. -/
theorem carried8 (h : Carried m c (W7 m ρ c)) : Carried m c (W8 m ρ c) :=
  ⟨(W8_of_ne m ρ c main_v1 (by decide)).trans h.v1, (W8_of_ne m ρ c main_v3 (by decide)).trans h.v3,
   ((W8_arr m ρ c 2).trans (((dat1 (V7 m ρ) c).arrAt_in 2 rfl cfg1.N).trans (A_eq1 (V7 m ρ) c 2))).trans h.v12,
   (W8_of_ne m ρ c main_arg4 (by decide)).trans h.a4, (W8_of_ne m ρ c main_arg5 (by decide)).trans h.a5,
   (W8_of_ne m ρ c main_arg6 (by decide)).trans h.a6⟩

/-- From the layer's input h at the stretch's entry, region 1 leaves the layer of h. -/
theorem layer1 (hC : Carried m c (W6 m ρ c)) (h : FVec Ideal S200000x128 .f32)
    (hh : W6 m ρ c (Proc.devRef .tc main_v16) = h) :
    W8 m ρ c (Proc.devRef .tc main_v34) = SageLayer.rectify (Ideal.ofBits .f32 0x00000000#32)
      (SageLayer.layerOut (agg (srcRow (m ((c : Thread nD τ).loc main_arg1))) (dstRow (m ((c : Thread nD τ).loc main_arg1)))) (inv (dstRow (m ((c : Thread nD τ).loc main_arg1)))) (mat0 (m ((c : Thread nD τ).loc main_arg4))) (mat0 (m ((c : Thread nD τ).loc main_arg5))) (vec0 (m ((c : Thread nD τ).loc main_arg6))) h) := by
  have eh : V7 m ρ c main_v16 = h := (keep1_main_v16 m ρ c).trans hh
  have eagg : V7 m ρ c main_v26 = agg (srcRow (m ((c : Thread nD τ).loc main_arg1))) (dstRow (m ((c : Thread nD τ).loc main_arg1))) h := by
    refine (read1_agg m ρ c).trans ?_
    rw [hC.v1, hC.v3, hh]
  have einv : V7 m ρ c main_v12 = invCol (dstRow (m ((c : Thread nD τ).loc main_arg1))) := (keep1_main_v12 m ρ c).trans hC.v12
  have ews : V7 m ρ c main_v28 = mat0 (m ((c : Thread nD τ).loc main_arg4)) := by
    refine (read1_ws m ρ c).trans ?_
    rw [hC.a4]
  have ewn : V7 m ρ c main_v30 = mat0 (m ((c : Thread nD τ).loc main_arg5)) := by
    refine (read1_wn m ρ c).trans ?_
    rw [hC.a5]
  have eb : V7 m ρ c main_v33 = row (vec0 (m ((c : Thread nD τ).loc main_arg6))) := by
    refine (read1_b m ρ c).trans ?_
    rw [hC.a6]
  have key : W8 m ρ c (Proc.devRef .tc main_v34) = (dat1 (V7 m ρ) c).arrAt 6 cfg1.N := W8_arr m ρ c 6
  rw [key, Blocks1.final (V7 m ρ) c]
  unfold Blocks1.G
  rw [eh, eagg, einv, ews, ewn, eb]
  unfold SageLayer.layerOut
  rw [SageLayer.combineCol_eq _ _ (inv (dstRow (m ((c : Thread nD τ).loc main_arg1)))) _ _ (vec0 (m ((c : Thread nD τ).loc main_arg6))) _ _
    (fun p => invCol_apply _ p) (fun q => row_apply _ q)]

end Cert.KernelIdeal.Fold

end
-- ==== Proof.KernelBlocks2.lean ====
/-
  Region 2 of the idealized kernel, read as one whole-array function. The region's grid has 25 points; point t
  holds rows 8000·t … 8000·t + 7999 of the node matrix. At a point the body takes the block of rows of the layer's
  input h and of the aggregate, the same rows of the per-node scale column, and the whole weight matrices and bias
  row, and stores h·ws + (agg·scale)·wn + b, rectified for those rows. Because an entry (p, q) of that layer depends on h
  and on the aggregate only through row p, the block a point writes back is the block of the layer stated on the
  whole arrays; the 25 blocks cover every row, so the array the region leaves is the layer of the arrays it found.
-/
import proofs.«170630_j57097295233646_2_alg».proof.Proof.Gen.KernelIdeal.Frame
import proofs.«170630_j57097295233646_2_alg».proof.Proof.LibSageLayer
import proofs.«170630_j57097295233646_2_alg».proof.Proof.LibSageRows
import proofs.«170630_j57097295233646_2_alg».proof.Proof.LibMatmul
import proofs.«170630_j57097295233646_2_alg».proof.Proof.LibColumns
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Blocks2

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

/-- The body's stored value at row r, column q of the block: the layer's entry from the blocks the body loaded. -/
theorem pay_ix2 (x0 x1 : Vec Ideal S8000x128 .f32) (x2 : Vec Ideal S8000x1 .f32) (x3 x4 : Vec Ideal S128x128 .f32)
    (x5 : Vec Ideal S1x128 .f32) (r : Fin 8000) (q : Fin 128) :
    k2_pay1 (F := Ideal) x0 x1 x2 x3 x4 x5 (ix2 r q)
      = max (SageLayer.combineAt x0 x1 (x2 (ix2 r (0 : Fin 1))) x3 x4 (x5 (ix2 (0 : Fin 1) q)) r q)
          (Ideal.ofBits .f32 0x00000000#32) := by
  unfold k2_pay1
  simp only [shapeCast_self]
  refine congrArg₂ max ?_ (Ideal.ofBits_def _)
  unfold SageLayer.combineAt
  refine congrArg₂ (· + ·) (congrArg₂ (· + ·) ?_ ?_) ?_
  · exact matmul_zero_ix2 dot_S8000x128_S128x128_S8000x128_1_0_0_1_n_n rfl rfl rfl rfl rfl rfl none x0 x3 r q
  · refine (matmul_zero_ix2 dot_S8000x128_S128x128_S8000x128_1_0_0_1_n_n rfl rfl rfl rfl rfl rfl none _ x4 r q).trans ?_
    unfold SageLayer.scaledRowDot
    refine Finset.sum_congr rfl fun j _ => ?_
    rw [mulf_apply, broadcastTo_a1_ab_apply]
  · exact broadcastTo_1b_ab_apply x5 _ r q

theorem hz : (![0, 0] : Fin 2 → Nat) = fun _ => 0 := funext fun a => by fin_cases a <;> rfl

/-- The block positions over the grid: the row-tiled windows sit at block row t, the others at the origin. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

variable (V : (c : Dev nD) → (b : Ref sig .tc) → Buf (Elt Ideal) ((c : Thread nD τ).loc b))

/-- The layer of the arrays the region finds. -/
def G (c : Dev nD) : FVec Ideal S200000x128 .f32 :=
  SageLayer.rectify (Ideal.ofBits .f32 0x00000000#32)
    (SageLayer.combineCol (V c main_v34) (V c main_v44) (V c main_v12) (V c main_v46) (V c main_v48) (V c main_v51))

/-- What point t writes back is block t of the layer of the arrays the region finds. -/
theorem flushed_eq (c : Dev nD) (t : Fin cfg2.N) :
    (dat2 V c).flushed 6 t = ((cfg2.win 6).blk t).view.read (Elt Ideal) (G V c) := by
  show (cfg2.win 6).cut (grid2.coords t) ((dat2 V c).after 6 t) = _
  rw [after2_6]
  unfold out2_6
  rw [View.canon_unit_zero hz]
  simp only [View.ld_unit_zero (S := S8000x128) hz, View.ld_unit_zero (S := S8000x1) hz,
    View.ld_unit_zero (S := S128x128) hz, View.ld_unit_zero (S := S1x128) hz]
  obtain ⟨e00, e01, e10, e11, e20, e21, e30, e31, e40, e41, e50, e51, e60, e61⟩ := idx_facts t
  funext y
  obtain ⟨r, q, rfl⟩ : ∃ (r : Fin 8000) (q : Fin 128), y = ix2 r q := ⟨y 0, y 1, eq_ix2 y⟩
  refine (pay_ix2 _ _ _ _ _ _ r q).trans ?_
  show _ = G V c (((cfg2.win 6).blk t).view.emb (ix2 r q))
  unfold G
  refine congrArg₂ max ?_ rfl
  refine SageLayer.combineAt_congr _ _ _ _ _ _ _ _ _ _ _ _ _ _ _ _ (fun j => ?_) (fun j => ?_) ?_ (fun j => ?_) (fun j => ?_) ?_
  · show V c main_v34 (((cfg2.win 0).blk t).view.emb (ix2 r j)) = V c main_v34 _
    refine congrArg _ (funext fun a => Fin.ext ?_)
    match a with
    | ⟨0, _⟩ => show win2_0.index t (0 : Fin 2) * 8000 + 1 * r.val = win2_6.index t (0 : Fin 2) * 8000 + 1 * r.val; rw [e00, e60]
    | ⟨1, _⟩ => show win2_0.index t (1 : Fin 2) * 128 + 1 * j.val = j.val; rw [e01]; omega
  · show V c main_v44 (((cfg2.win 1).blk t).view.emb (ix2 r j)) = V c main_v44 _
    refine congrArg _ (funext fun a => Fin.ext ?_)
    match a with
    | ⟨0, _⟩ => show win2_1.index t (0 : Fin 2) * 8000 + 1 * r.val = win2_6.index t (0 : Fin 2) * 8000 + 1 * r.val; rw [e10, e60]
    | ⟨1, _⟩ => show win2_1.index t (1 : Fin 2) * 128 + 1 * j.val = j.val; rw [e11]; omega
  · show V c main_v12 (((cfg2.win 2).blk t).view.emb (ix2 r (0 : Fin 1))) = V c main_v12 _
    refine congrArg _ (funext fun a => Fin.ext ?_)
    match a with
    | ⟨0, _⟩ => show win2_2.index t (0 : Fin 2) * 8000 + 1 * r.val = win2_6.index t (0 : Fin 2) * 8000 + 1 * r.val; rw [e20, e60]
    | ⟨1, _⟩ => show win2_2.index t (1 : Fin 2) * 1 + 1 * 0 = 0; rw [e21]
  · show V c main_v46 (((cfg2.win 3).blk t).view.emb (ix2 j q)) = V c main_v46 _
    refine congrArg _ (funext fun a => Fin.ext ?_)
    match a with
    | ⟨0, _⟩ => show win2_3.index t (0 : Fin 2) * 128 + 1 * j.val = j.val; rw [e30]; omega
    | ⟨1, _⟩ => show win2_3.index t (1 : Fin 2) * 128 + 1 * q.val = win2_6.index t (1 : Fin 2) * 128 + 1 * q.val; rw [e31, e61]
  · show V c main_v48 (((cfg2.win 4).blk t).view.emb (ix2 j q)) = V c main_v48 _
    refine congrArg _ (funext fun a => Fin.ext ?_)
    match a with
    | ⟨0, _⟩ => show win2_4.index t (0 : Fin 2) * 128 + 1 * j.val = j.val; rw [e40]; omega
    | ⟨1, _⟩ => show win2_4.index t (1 : Fin 2) * 128 + 1 * q.val = win2_6.index t (1 : Fin 2) * 128 + 1 * q.val; rw [e41, e61]
  · show V c main_v51 (((cfg2.win 5).blk t).view.emb (ix2 (0 : Fin 1) q)) = V c main_v51 _
    refine congrArg _ (funext fun a => Fin.ext ?_)
    match a with
    | ⟨0, _⟩ => show win2_5.index t (0 : Fin 2) * 1 + 1 * 0 = 0; rw [e50]
    | ⟨1, _⟩ => show win2_5.index t (1 : Fin 2) * 128 + 1 * q.val = win2_6.index t (1 : Fin 2) * 128 + 1 * q.val; rw [e51, e61]

/-- An index of the array is in point t's block iff each coordinate is in the block's range on its axis. -/
theorem mem_blk (t : Fin cfg2.N) (i : S200000x128.Idx) :
    i ∈ ((cfg2.win 6).blk t).view.set ↔ ∀ a : Fin 2, win2_6.index t a * S8000x128.size a ≤ (i a).val
      ∧ (i a).val < win2_6.index t a * S8000x128.size a + S8000x128.size a := by
  show i ∈ ((View.whole main_v52).slice (win2_6.rect t)).set ↔ _
  rw [View.set_slice_whole, Rect.mem_set_unit]
  exact Iff.rfl

/-- Every row lies in some point's block: row p in the block of point p / 8000. -/
theorem cover (i : S200000x128.Idx) :
    ∃ t : Fin cfg2.N, (cfg2.win 6).flush t = true ∧ i ∈ ((cfg2.win 6).blk t).view.set := by
  have hi0 : (i 0).val < 200000 := (i 0).isLt
  have hi1 : (i 1).val < 128 := (i 1).isLt
  have hN : cfg2.N = 25 := N_2
  let t : Fin cfg2.N := ⟨(i 0).val / 8000, by rw [hN]; omega⟩
  obtain ⟨e00, e01, e10, e11, e20, e21, e30, e31, e40, e41, e50, e51, e60, e61⟩ := idx_facts t
  have ht : t.val = (i 0).val / 8000 := rfl
  refine ⟨t, flush2_6 t, ?_⟩
  rw [mem_blk]
  intro a
  match a with
  | ⟨0, _⟩ => show win2_6.index t (0 : Fin 2) * 8000 ≤ (i 0).val ∧ (i 0).val < win2_6.index t (0 : Fin 2) * 8000 + 8000; rw [e60, ht]; omega
  | ⟨1, _⟩ => show win2_6.index t (1 : Fin 2) * 128 ≤ (i 1).val ∧ (i 1).val < win2_6.index t (1 : Fin 2) * 128 + 128; rw [e61]; omega

/-- The array the region leaves is the layer of the arrays it found. -/
theorem final (c : Dev nD) : (dat2 V c).arrAt 6 cfg2.N = G V c :=
  (dat2 V c).arrAt_eq_of_cover 6 (G V c) (fun t _ => flushed_eq V c t) (cover)

end Cert.KernelIdeal.Blocks2

end
-- ==== Proof.KernelFold2.lean ====
/-
  Layer 2 of the kernel: the stretch of host operations before region 2 and the region itself.

  The stretch gathers the source rows of the layer's input h and adds them onto their targets (the aggregate), and cuts
  slab 1 out of the stacked weights and biases; it writes none of the carried buffers and not h. The region then finds
  h, the aggregate, the scale column, the two weight matrices and the bias row, and leaves the layer of them, rectified; it
  changes no other array. Read through the scale column and the bias row, that is the layer stated on the vectors.
-/
import proofs.«170630_j57097295233646_2_alg».proof.Proof.Gen.KernelIdeal.Frame
import proofs.«170630_j57097295233646_2_alg».proof.Proof.KernelHost
import proofs.«170630_j57097295233646_2_alg».proof.Proof.KernelPad
import proofs.«170630_j57097295233646_2_alg».proof.Proof.LibSageLayer
import proofs.«170630_j57097295233646_2_alg».proof.Proof.KernelFold0
import proofs.«170630_j57097295233646_2_alg».proof.Proof.KernelBlocks2
import Idealize.ShloMosaic.Lib.StableHlo.Run
import Idealize.ShloMosaic.Lib.Pipeline.Value

set_option maxRecDepth 16384

noncomputable section

namespace Cert.KernelIdeal.Fold

open Cert.KernelIdeal Cert.KernelIdeal.Gen Cert.KernelIdeal.HostFns
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg) (c : Dev nD)

/-! The stretch before region 2, buffer by buffer: what it leaves unwritten, and what it computes from what. -/

theorem keep2_main_v1 : W9 m ρ c (Proc.devRef .tc main_v1) = W8 m ρ c (Proc.devRef .tc main_v1) := by
  show StableHlo.after hostOps2 (W8 m ρ c) (Proc.devRef .tc main_v1) = _
  generalize W8 m ρ c = X
  dsimp only [hostOps2]
  after_results

theorem keep2_main_v3 : W9 m ρ c (Proc.devRef .tc main_v3) = W8 m ρ c (Proc.devRef .tc main_v3) := by
  show StableHlo.after hostOps2 (W8 m ρ c) (Proc.devRef .tc main_v3) = _
  generalize W8 m ρ c = X
  dsimp only [hostOps2]
  after_results

theorem keep2_main_v12 : W9 m ρ c (Proc.devRef .tc main_v12) = W8 m ρ c (Proc.devRef .tc main_v12) := by
  show StableHlo.after hostOps2 (W8 m ρ c) (Proc.devRef .tc main_v12) = _
  generalize W8 m ρ c = X
  dsimp only [hostOps2]
  after_results

theorem keep2_main_arg4 : W9 m ρ c (Proc.devRef .tc main_arg4) = W8 m ρ c (Proc.devRef .tc main_arg4) := by
  show StableHlo.after hostOps2 (W8 m ρ c) (Proc.devRef .tc main_arg4) = _
  generalize W8 m ρ c = X
  dsimp only [hostOps2]
  after_results

theorem keep2_main_arg5 : W9 m ρ c (Proc.devRef .tc main_arg5) = W8 m ρ c (Proc.devRef .tc main_arg5) := by
  show StableHlo.after hostOps2 (W8 m ρ c) (Proc.devRef .tc main_arg5) = _
  generalize W8 m ρ c = X
  dsimp only [hostOps2]
  after_results

theorem keep2_main_arg6 : W9 m ρ c (Proc.devRef .tc main_arg6) = W8 m ρ c (Proc.devRef .tc main_arg6) := by
  show StableHlo.after hostOps2 (W8 m ρ c) (Proc.devRef .tc main_arg6) = _
  generalize W8 m ρ c = X
  dsimp only [hostOps2]
  after_results

theorem keep2_main_v34 : W9 m ρ c (Proc.devRef .tc main_v34) = W8 m ρ c (Proc.devRef .tc main_v34) := by
  show StableHlo.after hostOps2 (W8 m ρ c) (Proc.devRef .tc main_v34) = _
  generalize W8 m ρ c = X
  dsimp only [hostOps2]
  after_results

set_option maxHeartbeats 2000000 in
theorem read2_agg : W9 m ρ c (Proc.devRef .tc main_v44) = agg (W8 m ρ c (Proc.devRef .tc main_v1))
    (W8 m ρ c (Proc.devRef .tc main_v3)) (W8 m ρ c (Proc.devRef .tc main_v34)) := by
  show StableHlo.after hostOps2 (W8 m ρ c) (Proc.devRef .tc main_v44) = _
  generalize W8 m ρ c = X
  dsimp only [hostOps2]
  after_results
  rfl

theorem read2_ws : W9 m ρ c (Proc.devRef .tc main_v46) = mat1 (W8 m ρ c (Proc.devRef .tc main_arg4)) := by
  show StableHlo.after hostOps2 (W8 m ρ c) (Proc.devRef .tc main_v46) = _
  generalize W8 m ρ c = X
  dsimp only [hostOps2]
  after_results
  rfl

theorem read2_wn : W9 m ρ c (Proc.devRef .tc main_v48) = mat1 (W8 m ρ c (Proc.devRef .tc main_arg5)) := by
  show StableHlo.after hostOps2 (W8 m ρ c) (Proc.devRef .tc main_v48) = _
  generalize W8 m ρ c = X
  dsimp only [hostOps2]
  after_results
  rfl

theorem read2_b : W9 m ρ c (Proc.devRef .tc main_v51) = row (vec1 (W8 m ρ c (Proc.devRef .tc main_arg6))) := by
  show StableHlo.after hostOps2 (W8 m ρ c) (Proc.devRef .tc main_v51) = _
  generalize W8 m ρ c = X
  dsimp only [hostOps2]
  after_results
  rfl

/-- The stretch before region 2 writes none of the carried buffers. -/
theorem carried9 (h : Carried m c (W8 m ρ c)) : Carried m c (W9 m ρ c) :=
  ⟨(keep2_main_v1 m ρ c).trans h.v1, (keep2_main_v3 m ρ c).trans h.v3, (keep2_main_v12 m ρ c).trans h.v12,
   (keep2_main_arg4 m ρ c).trans h.a4, (keep2_main_arg5 m ρ c).trans h.a5, (keep2_main_arg6 m ρ c).trans h.a6⟩

/-- Region 2 changes none of them: the scale column is an input window's array, the others are not its arrays. -/
theorem carried10 (h : Carried m c (W9 m ρ c)) : Carried m c (W10 m ρ c) :=
  ⟨(W10_of_ne m ρ c main_v1 (by decide)).trans h.v1, (W10_of_ne m ρ c main_v3 (by decide)).trans h.v3,
   ((W10_arr m ρ c 2).trans (((dat2 (V9 m ρ) c).arrAt_in 2 rfl cfg2.N).trans (A_eq2 (V9 m ρ) c 2))).trans h.v12,
   (W10_of_ne m ρ c main_arg4 (by decide)).trans h.a4, (W10_of_ne m ρ c main_arg5 (by decide)).trans h.a5,
   (W10_of_ne m ρ c main_arg6 (by decide)).trans h.a6⟩

/-- From the layer's input h at the stretch's entry, region 2 leaves the layer of h. -/
theorem layer2 (hC : Carried m c (W8 m ρ c)) (h : FVec Ideal S200000x128 .f32)
    (hh : W8 m ρ c (Proc.devRef .tc main_v34) = h) :
    W10 m ρ c (Proc.devRef .tc main_v52) = SageLayer.rectify (Ideal.ofBits .f32 0x00000000#32)
      (SageLayer.layerOut (agg (srcRow (m ((c : Thread nD τ).loc main_arg1))) (dstRow (m ((c : Thread nD τ).loc main_arg1)))) (inv (dstRow (m ((c : Thread nD τ).loc main_arg1)))) (mat1 (m ((c : Thread nD τ).loc main_arg4))) (mat1 (m ((c : Thread nD τ).loc main_arg5))) (vec1 (m ((c : Thread nD τ).loc main_arg6))) h) := by
  have eh : V9 m ρ c main_v34 = h := (keep2_main_v34 m ρ c).trans hh
  have eagg : V9 m ρ c main_v44 = agg (srcRow (m ((c : Thread nD τ).loc main_arg1))) (dstRow (m ((c : Thread nD τ).loc main_arg1))) h := by
    refine (read2_agg m ρ c).trans ?_
    rw [hC.v1, hC.v3, hh]
  have einv : V9 m ρ c main_v12 = invCol (dstRow (m ((c : Thread nD τ).loc main_arg1))) := (keep2_main_v12 m ρ c).trans hC.v12
  have ews : V9 m ρ c main_v46 = mat1 (m ((c : Thread nD τ).loc main_arg4)) := by
    refine (read2_ws m ρ c).trans ?_
    rw [hC.a4]
  have ewn : V9 m ρ c main_v48 = mat1 (m ((c : Thread nD τ).loc main_arg5)) := by
    refine (read2_wn m ρ c).trans ?_
    rw [hC.a5]
  have eb : V9 m ρ c main_v51 = row (vec1 (m ((c : Thread nD τ).loc main_arg6))) := by
    refine (read2_b m ρ c).trans ?_
    rw [hC.a6]
  have key : W10 m ρ c (Proc.devRef .tc main_v52) = (dat2 (V9 m ρ) c).arrAt 6 cfg2.N := W10_arr m ρ c 6
  rw [key, Blocks2.final (V9 m ρ) c]
  unfold Blocks2.G
  rw [eh, eagg, einv, ews, ewn, eb]
  unfold SageLayer.layerOut
  rw [SageLayer.combineCol_eq _ _ (inv (dstRow (m ((c : Thread nD τ).loc main_arg1)))) _ _ (vec1 (m ((c : Thread nD τ).loc main_arg6))) _ _
    (fun p => invCol_apply _ p) (fun q => row_apply _ q)]

end Cert.KernelIdeal.Fold

end
-- ==== Proof.KernelBlocks3.lean ====
/-
  Region 3 of the idealized kernel, read as one whole-array function. The region's grid has 25 points; point t
  holds rows 8000·t … 8000·t + 7999 of the node matrix. At a point the body takes the block of rows of the layer's
  input h and of the aggregate, the same rows of the per-node scale column, and the whole weight matrices and bias
  row, and stores h·ws + (agg·scale)·wn + b for those rows. Because an entry (p, q) of that layer depends on h
  and on the aggregate only through row p, the block a point writes back is the block of the layer stated on the
  whole arrays; the 25 blocks cover every row, so the array the region leaves is the layer of the arrays it found.
-/
import proofs.«170630_j57097295233646_2_alg».proof.Proof.Gen.KernelIdeal.Frame
import proofs.«170630_j57097295233646_2_alg».proof.Proof.LibSageLayer
import proofs.«170630_j57097295233646_2_alg».proof.Proof.LibSageRows
import proofs.«170630_j57097295233646_2_alg».proof.Proof.LibMatmul
import proofs.«170630_j57097295233646_2_alg».proof.Proof.LibColumns
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Blocks3

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

/-- The body's stored value at row r, column q of the block: the layer's entry from the blocks the body loaded. -/
theorem pay_ix2 (x0 x1 : Vec Ideal S8000x128 .f32) (x2 : Vec Ideal S8000x1 .f32) (x3 x4 : Vec Ideal S128x128 .f32)
    (x5 : Vec Ideal S1x128 .f32) (r : Fin 8000) (q : Fin 128) :
    k3_pay1 (F := Ideal) x0 x1 x2 x3 x4 x5 (ix2 r q)
      = SageLayer.combineAt x0 x1 (x2 (ix2 r (0 : Fin 1))) x3 x4 (x5 (ix2 (0 : Fin 1) q)) r q := by
  unfold k3_pay1
  simp only [shapeCast_self]
  unfold SageLayer.combineAt
  refine congrArg₂ (· + ·) (congrArg₂ (· + ·) ?_ ?_) ?_
  · exact matmul_zero_ix2 dot_S8000x128_S128x128_S8000x128_1_0_0_1_n_n rfl rfl rfl rfl rfl rfl none x0 x3 r q
  · refine (matmul_zero_ix2 dot_S8000x128_S128x128_S8000x128_1_0_0_1_n_n rfl rfl rfl rfl rfl rfl none _ x4 r q).trans ?_
    unfold SageLayer.scaledRowDot
    refine Finset.sum_congr rfl fun j _ => ?_
    rw [mulf_apply, broadcastTo_a1_ab_apply]
  · exact broadcastTo_1b_ab_apply x5 _ r q

theorem hz : (![0, 0] : Fin 2 → Nat) = fun _ => 0 := funext fun a => by fin_cases a <;> rfl

/-- The block positions over the grid: the row-tiled windows sit at block row t, the others at the origin. -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0 :=
  (by decide +kernel : ∀ t : Fin grid3.N, _)

variable (V : (c : Dev nD) → (b : Ref sig .tc) → Buf (Elt Ideal) ((c : Thread nD τ).loc b))

/-- The layer of the arrays the region finds. -/
def G (c : Dev nD) : FVec Ideal S200000x128 .f32 :=
  SageLayer.combineCol (V c main_v52) (V c main_v62) (V c main_v12) (V c main_v64) (V c main_v66) (V c main_v69)

/-- What point t writes back is block t of the layer of the arrays the region finds. -/
theorem flushed_eq (c : Dev nD) (t : Fin cfg3.N) :
    (dat3 V c).flushed 6 t = ((cfg3.win 6).blk t).view.read (Elt Ideal) (G V c) := by
  show (cfg3.win 6).cut (grid3.coords t) ((dat3 V c).after 6 t) = _
  rw [after3_6]
  unfold out3_6
  rw [View.canon_unit_zero hz]
  simp only [View.ld_unit_zero (S := S8000x128) hz, View.ld_unit_zero (S := S8000x1) hz,
    View.ld_unit_zero (S := S128x128) hz, View.ld_unit_zero (S := S1x128) hz]
  obtain ⟨e00, e01, e10, e11, e20, e21, e30, e31, e40, e41, e50, e51, e60, e61⟩ := idx_facts t
  funext y
  obtain ⟨r, q, rfl⟩ : ∃ (r : Fin 8000) (q : Fin 128), y = ix2 r q := ⟨y 0, y 1, eq_ix2 y⟩
  refine (pay_ix2 _ _ _ _ _ _ r q).trans ?_
  show _ = G V c (((cfg3.win 6).blk t).view.emb (ix2 r q))
  unfold G
  refine SageLayer.combineAt_congr _ _ _ _ _ _ _ _ _ _ _ _ _ _ _ _ (fun j => ?_) (fun j => ?_) ?_ (fun j => ?_) (fun j => ?_) ?_
  · show V c main_v52 (((cfg3.win 0).blk t).view.emb (ix2 r j)) = V c main_v52 _
    refine congrArg _ (funext fun a => Fin.ext ?_)
    match a with
    | ⟨0, _⟩ => show win3_0.index t (0 : Fin 2) * 8000 + 1 * r.val = win3_6.index t (0 : Fin 2) * 8000 + 1 * r.val; rw [e00, e60]
    | ⟨1, _⟩ => show win3_0.index t (1 : Fin 2) * 128 + 1 * j.val = j.val; rw [e01]; omega
  · show V c main_v62 (((cfg3.win 1).blk t).view.emb (ix2 r j)) = V c main_v62 _
    refine congrArg _ (funext fun a => Fin.ext ?_)
    match a with
    | ⟨0, _⟩ => show win3_1.index t (0 : Fin 2) * 8000 + 1 * r.val = win3_6.index t (0 : Fin 2) * 8000 + 1 * r.val; rw [e10, e60]
    | ⟨1, _⟩ => show win3_1.index t (1 : Fin 2) * 128 + 1 * j.val = j.val; rw [e11]; omega
  · show V c main_v12 (((cfg3.win 2).blk t).view.emb (ix2 r (0 : Fin 1))) = V c main_v12 _
    refine congrArg _ (funext fun a => Fin.ext ?_)
    match a with
    | ⟨0, _⟩ => show win3_2.index t (0 : Fin 2) * 8000 + 1 * r.val = win3_6.index t (0 : Fin 2) * 8000 + 1 * r.val; rw [e20, e60]
    | ⟨1, _⟩ => show win3_2.index t (1 : Fin 2) * 1 + 1 * 0 = 0; rw [e21]
  · show V c main_v64 (((cfg3.win 3).blk t).view.emb (ix2 j q)) = V c main_v64 _
    refine congrArg _ (funext fun a => Fin.ext ?_)
    match a with
    | ⟨0, _⟩ => show win3_3.index t (0 : Fin 2) * 128 + 1 * j.val = j.val; rw [e30]; omega
    | ⟨1, _⟩ => show win3_3.index t (1 : Fin 2) * 128 + 1 * q.val = win3_6.index t (1 : Fin 2) * 128 + 1 * q.val; rw [e31, e61]
  · show V c main_v66 (((cfg3.win 4).blk t).view.emb (ix2 j q)) = V c main_v66 _
    refine congrArg _ (funext fun a => Fin.ext ?_)
    match a with
    | ⟨0, _⟩ => show win3_4.index t (0 : Fin 2) * 128 + 1 * j.val = j.val; rw [e40]; omega
    | ⟨1, _⟩ => show win3_4.index t (1 : Fin 2) * 128 + 1 * q.val = win3_6.index t (1 : Fin 2) * 128 + 1 * q.val; rw [e41, e61]
  · show V c main_v69 (((cfg3.win 5).blk t).view.emb (ix2 (0 : Fin 1) q)) = V c main_v69 _
    refine congrArg _ (funext fun a => Fin.ext ?_)
    match a with
    | ⟨0, _⟩ => show win3_5.index t (0 : Fin 2) * 1 + 1 * 0 = 0; rw [e50]
    | ⟨1, _⟩ => show win3_5.index t (1 : Fin 2) * 128 + 1 * q.val = win3_6.index t (1 : Fin 2) * 128 + 1 * q.val; rw [e51, e61]

/-- An index of the array is in point t's block iff each coordinate is in the block's range on its axis. -/
theorem mem_blk (t : Fin cfg3.N) (i : S200000x128.Idx) :
    i ∈ ((cfg3.win 6).blk t).view.set ↔ ∀ a : Fin 2, win3_6.index t a * S8000x128.size a ≤ (i a).val
      ∧ (i a).val < win3_6.index t a * S8000x128.size a + S8000x128.size a := by
  show i ∈ ((View.whole main_v70).slice (win3_6.rect t)).set ↔ _
  rw [View.set_slice_whole, Rect.mem_set_unit]
  exact Iff.rfl

/-- Every row lies in some point's block: row p in the block of point p / 8000. -/
theorem cover (i : S200000x128.Idx) :
    ∃ t : Fin cfg3.N, (cfg3.win 6).flush t = true ∧ i ∈ ((cfg3.win 6).blk t).view.set := by
  have hi0 : (i 0).val < 200000 := (i 0).isLt
  have hi1 : (i 1).val < 128 := (i 1).isLt
  have hN : cfg3.N = 25 := N_3
  let t : Fin cfg3.N := ⟨(i 0).val / 8000, by rw [hN]; omega⟩
  obtain ⟨e00, e01, e10, e11, e20, e21, e30, e31, e40, e41, e50, e51, e60, e61⟩ := idx_facts t
  have ht : t.val = (i 0).val / 8000 := rfl
  refine ⟨t, flush3_6 t, ?_⟩
  rw [mem_blk]
  intro a
  match a with
  | ⟨0, _⟩ => show win3_6.index t (0 : Fin 2) * 8000 ≤ (i 0).val ∧ (i 0).val < win3_6.index t (0 : Fin 2) * 8000 + 8000; rw [e60, ht]; omega
  | ⟨1, _⟩ => show win3_6.index t (1 : Fin 2) * 128 ≤ (i 1).val ∧ (i 1).val < win3_6.index t (1 : Fin 2) * 128 + 128; rw [e61]; omega

/-- The array the region leaves is the layer of the arrays it found. -/
theorem final (c : Dev nD) : (dat3 V c).arrAt 6 cfg3.N = G V c :=
  (dat3 V c).arrAt_eq_of_cover 6 (G V c) (fun t _ => flushed_eq V c t) (cover)

end Cert.KernelIdeal.Blocks3

end
-- ==== Proof.KernelFold3.lean ====
/-
  Layer 3 of the kernel: the stretch of host operations before region 3 and the region itself.

  The stretch gathers the source rows of the layer's input h and adds them onto their targets (the aggregate), and cuts
  slab 2 out of the stacked weights and biases; it writes none of the carried buffers and not h. The region then finds
  h, the aggregate, the scale column, the two weight matrices and the bias row, and leaves the layer of them; it
  changes no other array. Read through the scale column and the bias row, that is the layer stated on the vectors.
-/
import proofs.«170630_j57097295233646_2_alg».proof.Proof.Gen.KernelIdeal.Frame
import proofs.«170630_j57097295233646_2_alg».proof.Proof.KernelHost
import proofs.«170630_j57097295233646_2_alg».proof.Proof.KernelPad
import proofs.«170630_j57097295233646_2_alg».proof.Proof.LibSageLayer
import proofs.«170630_j57097295233646_2_alg».proof.Proof.KernelFold0
import proofs.«170630_j57097295233646_2_alg».proof.Proof.KernelBlocks3
import Idealize.ShloMosaic.Lib.StableHlo.Run
import Idealize.ShloMosaic.Lib.Pipeline.Value

set_option maxRecDepth 16384

noncomputable section

namespace Cert.KernelIdeal.Fold

open Cert.KernelIdeal Cert.KernelIdeal.Gen Cert.KernelIdeal.HostFns
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg) (c : Dev nD)

/-! The stretch before region 3, buffer by buffer: what it leaves unwritten, and what it computes from what. -/

theorem keep3_main_v1 : W11 m ρ c (Proc.devRef .tc main_v1) = W10 m ρ c (Proc.devRef .tc main_v1) := by
  show StableHlo.after hostOps3 (W10 m ρ c) (Proc.devRef .tc main_v1) = _
  generalize W10 m ρ c = X
  dsimp only [hostOps3]
  after_results

theorem keep3_main_v3 : W11 m ρ c (Proc.devRef .tc main_v3) = W10 m ρ c (Proc.devRef .tc main_v3) := by
  show StableHlo.after hostOps3 (W10 m ρ c) (Proc.devRef .tc main_v3) = _
  generalize W10 m ρ c = X
  dsimp only [hostOps3]
  after_results

theorem keep3_main_v12 : W11 m ρ c (Proc.devRef .tc main_v12) = W10 m ρ c (Proc.devRef .tc main_v12) := by
  show StableHlo.after hostOps3 (W10 m ρ c) (Proc.devRef .tc main_v12) = _
  generalize W10 m ρ c = X
  dsimp only [hostOps3]
  after_results

theorem keep3_main_arg4 : W11 m ρ c (Proc.devRef .tc main_arg4) = W10 m ρ c (Proc.devRef .tc main_arg4) := by
  show StableHlo.after hostOps3 (W10 m ρ c) (Proc.devRef .tc main_arg4) = _
  generalize W10 m ρ c = X
  dsimp only [hostOps3]
  after_results

theorem keep3_main_arg5 : W11 m ρ c (Proc.devRef .tc main_arg5) = W10 m ρ c (Proc.devRef .tc main_arg5) := by
  show StableHlo.after hostOps3 (W10 m ρ c) (Proc.devRef .tc main_arg5) = _
  generalize W10 m ρ c = X
  dsimp only [hostOps3]
  after_results

theorem keep3_main_arg6 : W11 m ρ c (Proc.devRef .tc main_arg6) = W10 m ρ c (Proc.devRef .tc main_arg6) := by
  show StableHlo.after hostOps3 (W10 m ρ c) (Proc.devRef .tc main_arg6) = _
  generalize W10 m ρ c = X
  dsimp only [hostOps3]
  after_results

theorem keep3_main_v52 : W11 m ρ c (Proc.devRef .tc main_v52) = W10 m ρ c (Proc.devRef .tc main_v52) := by
  show StableHlo.after hostOps3 (W10 m ρ c) (Proc.devRef .tc main_v52) = _
  generalize W10 m ρ c = X
  dsimp only [hostOps3]
  after_results

set_option maxHeartbeats 2000000 in
theorem read3_agg : W11 m ρ c (Proc.devRef .tc main_v62) = agg (W10 m ρ c (Proc.devRef .tc main_v1))
    (W10 m ρ c (Proc.devRef .tc main_v3)) (W10 m ρ c (Proc.devRef .tc main_v52)) := by
  show StableHlo.after hostOps3 (W10 m ρ c) (Proc.devRef .tc main_v62) = _
  generalize W10 m ρ c = X
  dsimp only [hostOps3]
  after_results
  rfl

theorem read3_ws : W11 m ρ c (Proc.devRef .tc main_v64) = mat2 (W10 m ρ c (Proc.devRef .tc main_arg4)) := by
  show StableHlo.after hostOps3 (W10 m ρ c) (Proc.devRef .tc main_v64) = _
  generalize W10 m ρ c = X
  dsimp only [hostOps3]
  after_results
  rfl

theorem read3_wn : W11 m ρ c (Proc.devRef .tc main_v66) = mat2 (W10 m ρ c (Proc.devRef .tc main_arg5)) := by
  show StableHlo.after hostOps3 (W10 m ρ c) (Proc.devRef .tc main_v66) = _
  generalize W10 m ρ c = X
  dsimp only [hostOps3]
  after_results
  rfl

theorem read3_b : W11 m ρ c (Proc.devRef .tc main_v69) = row (vec2 (W10 m ρ c (Proc.devRef .tc main_arg6))) := by
  show StableHlo.after hostOps3 (W10 m ρ c) (Proc.devRef .tc main_v69) = _
  generalize W10 m ρ c = X
  dsimp only [hostOps3]
  after_results
  rfl

/-- The stretch before region 3 writes none of the carried buffers. -/
theorem carried11 (h : Carried m c (W10 m ρ c)) : Carried m c (W11 m ρ c) :=
  ⟨(keep3_main_v1 m ρ c).trans h.v1, (keep3_main_v3 m ρ c).trans h.v3, (keep3_main_v12 m ρ c).trans h.v12,
   (keep3_main_arg4 m ρ c).trans h.a4, (keep3_main_arg5 m ρ c).trans h.a5, (keep3_main_arg6 m ρ c).trans h.a6⟩

/-- Region 3 changes none of them: the scale column is an input window's array, the others are not its arrays. -/
theorem carried12 (h : Carried m c (W11 m ρ c)) : Carried m c (W12 m ρ c) :=
  ⟨(W12_of_ne m ρ c main_v1 (by decide)).trans h.v1, (W12_of_ne m ρ c main_v3 (by decide)).trans h.v3,
   ((W12_arr m ρ c 2).trans (((dat3 (V11 m ρ) c).arrAt_in 2 rfl cfg3.N).trans (A_eq3 (V11 m ρ) c 2))).trans h.v12,
   (W12_of_ne m ρ c main_arg4 (by decide)).trans h.a4, (W12_of_ne m ρ c main_arg5 (by decide)).trans h.a5,
   (W12_of_ne m ρ c main_arg6 (by decide)).trans h.a6⟩

/-- From the layer's input h at the stretch's entry, region 3 leaves the layer of h. -/
theorem layer3 (hC : Carried m c (W10 m ρ c)) (h : FVec Ideal S200000x128 .f32)
    (hh : W10 m ρ c (Proc.devRef .tc main_v52) = h) :
    W12 m ρ c (Proc.devRef .tc main_v70) = SageLayer.layerOut (agg (srcRow (m ((c : Thread nD τ).loc main_arg1))) (dstRow (m ((c : Thread nD τ).loc main_arg1)))) (inv (dstRow (m ((c : Thread nD τ).loc main_arg1)))) (mat2 (m ((c : Thread nD τ).loc main_arg4))) (mat2 (m ((c : Thread nD τ).loc main_arg5))) (vec2 (m ((c : Thread nD τ).loc main_arg6))) h := by
  have eh : V11 m ρ c main_v52 = h := (keep3_main_v52 m ρ c).trans hh
  have eagg : V11 m ρ c main_v62 = agg (srcRow (m ((c : Thread nD τ).loc main_arg1))) (dstRow (m ((c : Thread nD τ).loc main_arg1))) h := by
    refine (read3_agg m ρ c).trans ?_
    rw [hC.v1, hC.v3, hh]
  have einv : V11 m ρ c main_v12 = invCol (dstRow (m ((c : Thread nD τ).loc main_arg1))) := (keep3_main_v12 m ρ c).trans hC.v12
  have ews : V11 m ρ c main_v64 = mat2 (m ((c : Thread nD τ).loc main_arg4)) := by
    refine (read3_ws m ρ c).trans ?_
    rw [hC.a4]
  have ewn : V11 m ρ c main_v66 = mat2 (m ((c : Thread nD τ).loc main_arg5)) := by
    refine (read3_wn m ρ c).trans ?_
    rw [hC.a5]
  have eb : V11 m ρ c main_v69 = row (vec2 (m ((c : Thread nD τ).loc main_arg6))) := by
    refine (read3_b m ρ c).trans ?_
    rw [hC.a6]
  have key : W12 m ρ c (Proc.devRef .tc main_v70) = (dat3 (V11 m ρ) c).arrAt 6 cfg3.N := W12_arr m ρ c 6
  rw [key, Blocks3.final (V11 m ρ) c]
  unfold Blocks3.G
  rw [eh, eagg, einv, ews, ewn, eb]
  unfold SageLayer.layerOut
  rw [SageLayer.combineCol_eq _ _ (inv (dstRow (m ((c : Thread nD τ).loc main_arg1)))) _ _ (vec2 (m ((c : Thread nD τ).loc main_arg6))) _ _
    (fun p => invCol_apply _ p) (fun q => row_apply _ q)]

end Cert.KernelIdeal.Fold

end
-- ==== Proof.KernelValue.lean ====
/-
  The idealized kernel's result as one function of its arguments. The first region leaves tanh(x·w + b); each of the
  three layer regions leaves, from the previous region's array h, the layer h·ws + (agg(h)·scale)·wn + b with that
  layer's slabs of the stacked weights (the first two rectified), the aggregation and the per-node scale the same in
  all three. Chained, the last region's array — the contents of the result buffer at the last boundary — is the
  three-layer network of the arguments.
-/
import proofs.«170630_j57097295233646_2_alg».proof.Proof.KernelFold0
import proofs.«170630_j57097295233646_2_alg».proof.Proof.KernelFold1
import proofs.«170630_j57097295233646_2_alg».proof.Proof.KernelFold2
import proofs.«170630_j57097295233646_2_alg».proof.Proof.KernelFold3

noncomputable section

namespace Cert.KernelIdeal.Fold

open Cert.KernelIdeal Cert.KernelIdeal.Gen Cert.KernelIdeal.HostFns
open Idealize.ShloMosaic Idealize.ShloMosaic.TcCoe Idealize.SL.Sem

variable (m : (ℓ : Loc nD τ sig) → Buf (Elt Ideal) ℓ) (ρ : Dev nD → PrngReg) (c : Dev nD)

/-- The result buffer at the last boundary holds the network of the arguments. -/
theorem result : W12 m ρ c (Proc.devRef .tc main_v70) = SageLayer.net3 (agg (srcRow (m ((c : Thread nD τ).loc main_arg1))) (dstRow (m ((c : Thread nD τ).loc main_arg1)))) (Ideal.ofBits .f32 0x00000000#32)
      (m ((c : Thread nD τ).loc main_arg0)) (m ((c : Thread nD τ).loc main_arg2)) (m ((c : Thread nD τ).loc main_arg3)) (inv (dstRow (m ((c : Thread nD τ).loc main_arg1))))
      (mat0 (m ((c : Thread nD τ).loc main_arg4))) (mat0 (m ((c : Thread nD τ).loc main_arg5))) (vec0 (m ((c : Thread nD τ).loc main_arg6)))
      (mat1 (m ((c : Thread nD τ).loc main_arg4))) (mat1 (m ((c : Thread nD τ).loc main_arg5))) (vec1 (m ((c : Thread nD τ).loc main_arg6)))
      (mat2 (m ((c : Thread nD τ).loc main_arg4))) (mat2 (m ((c : Thread nD τ).loc main_arg5))) (vec2 (m ((c : Thread nD τ).loc main_arg6))) := by
  have c6 := carried6 m ρ c
  have c8 := carried8 m ρ c (carried7 m ρ c c6)
  have c10 := carried10 m ρ c (carried9 m ρ c c8)
  have h1 := layer1 m ρ c c6 _ (proj0 m ρ c)
  have h2 := layer2 m ρ c c8 _ h1
  have h3 := layer3 m ρ c c10 _ h2
  unfold SageLayer.net3
  exact h3

end Cert.KernelIdeal.Fold

end
-- ==== Proof.RefStages.lean ====
/-
  The reference network's result as a whole-array function.

  The reference computes h₀ = tanh(x·W + b) and then three layers h ↦ h·Wₛ + (A h scaled row by row by inv)·Wₙ + b,
  the first two followed by an entrywise maximum with zero, where A h gathers the rows h[src] and scatter-adds them onto
  a zero array at the rows dst, and inv is one per-row scale computed once from the edge list. Each dense stage is read
  at a coordinate pair (p, q): a contraction is the sum over the shared axis, a broadcast bias is the bias entry q, a
  broadcast per-row scale is the scale entry p. The three aggregations are the same function of the edge list applied
  to three different arrays: the zero arrays, the destination columns and the source columns are recomputed by the
  program under different names but are the same terms.
-/
import proofs.«170630_j57097295233646_2_alg».proof.Proof.Gen.ReferenceIdeal.Read
import proofs.«170630_j57097295233646_2_alg».proof.Proof.LibSageLayer

open scoped BigOperators

noncomputable section

namespace Cert.ReferenceIdeal.RefValue

open Cert.ReferenceIdeal Cert.ReferenceIdeal.Gen Idealize.ShloMosaic Idealize.ShloMosaic.TcCoe Idealize.SL.Sem
  Idealize.ShloMosaic.StableHlo Idealize.ShloMosaic.ValueIdx

/-- A rank-2 index whose coordinates have the values of `a` and `b` is `ix2 a b`. -/
theorem ix2_of_val {n0 n1 : Nat} (j : (⟨2, ![n0, n1]⟩ : Shape).Idx) (a : Fin n0) (b : Fin n1)
    (h0 : (j 0).val = a.val) (h1 : (j 1).val = b.val) : j = ix2 a b :=
  funext fun d => Fin.ext (by match d with | ⟨0, _⟩ => exact h0 | ⟨1, _⟩ => exact h1)

/-- A rank-1 index whose coordinate has the value of `a` is `ix1 a`. -/
theorem ix1_of_val {n : Nat} (j : (⟨1, ![n]⟩ : Shape).Idx) (a : Fin n) (h0 : (j 0).val = a.val) : j = ix1 a :=
  funext fun d => Fin.ext (by match d with | ⟨0, _⟩ => exact h0)

variable (x0 : (⟨S200000x117, .f32⟩ : BufTy).Contents (Elt Ideal)) (x1 : (⟨S2x600000, .i32⟩ : BufTy).Contents (Elt Ideal))
  (x2 : (⟨S117x128, .f32⟩ : BufTy).Contents (Elt Ideal)) (x3 : (⟨S128, .f32⟩ : BufTy).Contents (Elt Ideal))
  (x4 x5 : (⟨S3x128x128, .f32⟩ : BufTy).Contents (Elt Ideal)) (x6 : (⟨S3x128, .f32⟩ : BufTy).Contents (Elt Ideal))

/-! ## The input projection -/

/-- The first stage is tanh(x·W + b). -/
theorem proj_stage : Read.val_main_v4 (F := Ideal) x0 x2 x3 = SageLayer.proj x0 x2 x3 := by
  funext i
  obtain ⟨p, q, rfl⟩ : ∃ (p : Fin 200000) (q : Fin 128), i = ix2 p q := ⟨i 0, i 1, eq_ix2 i⟩
  rw [Read.val_main_v4_apply, Read.val_main_v3_apply, Read.val_main_v0_apply, Read.val_main_v2_apply,
    Read.val_main_v1_apply, SageLayer.proj_ix2]
  unfold SageLayer.projAt SageLayer.rowDot
  rw [Ideal.hostUnary_tanh_def, Ideal.addf_def,
    show Read.idx_main_v1 (Read.idx_main_v2 (ix2 p q)) = ix1 q from ix1_of_val _ _ rfl]
  refine congrArg Ideal.tanh (congrArg (· + x3 (ix1 q)) (Finset.sum_congr rfl fun k _ => ?_))
  rw [show Read.lidx_main_v0 (ix2 p q) k = ix2 p k from ix2_of_val _ _ _ rfl rfl,
    show Read.ridx_main_v0 (ix2 p q) k = ix2 k q from ix2_of_val _ _ _ rfl rfl]

/-! ## The aggregation -/

/-- The reference's aggregation: gather the rows h[src], scatter-add them onto zeros at dst. -/
def aggR (x1 : (⟨S2x600000, .i32⟩ : BufTy).Contents (Elt Ideal)) (h : FVec Ideal S200000x128 .f32) :
    FVec Ideal S200000x128 .f32 :=
  Host.scatterAdd scatter_S200000x128_S600000x1_S600000x128_1_0_0_1 (Read.val_main_v24 (F := Ideal))
    (Read.val_main_v25 (F := Ideal) x1)
    (Host.gather gather_S200000x128_S600000x1_S600000x128_1_0_n_n_0_1_1128 h (Read.val_main_v22 (F := Ideal) x1))

/-- The first layer's aggregate is the aggregation of the projection. -/
theorem agg_stage1 :
    Read.val_main_v26 (F := Ideal) x0 x1 x2 x3 = aggR x1 (Read.val_main_v4 (F := Ideal) x0 x2 x3) := by
  unfold Read.val_main_v26 Read.val_main_v23 aggR
  rfl

/-- The zero array of the second aggregation is that of the first. -/
theorem zeros2 : Read.val_main_v50 (F := Ideal) = Read.val_main_v24 (F := Ideal) := rfl
/-- The destination column of the second aggregation is that of the first. -/
theorem dst2 : Read.val_main_v51 (F := Ideal) x1 = Read.val_main_v25 (F := Ideal) x1 := rfl
/-- The source column of the second aggregation is that of the first. -/
theorem src2 : Read.val_main_v48 (F := Ideal) x1 = Read.val_main_v22 (F := Ideal) x1 := rfl

/-- The second layer's aggregate is the aggregation of the first layer's rectified output. -/
theorem agg_stage2 :
    Read.val_main_v52 (F := Ideal) x0 x1 x2 x3 x4 x5 x6
      = aggR x1 (Read.val_main_v42 (F := Ideal) x0 x1 x2 x3 x4 x5 x6) := by
  unfold Read.val_main_v52 Read.val_main_v49 aggR
  rw [zeros2, dst2, src2]

/-- The zero array of the third aggregation is that of the first. -/
theorem zeros3 : Read.val_main_v76 (F := Ideal) = Read.val_main_v24 (F := Ideal) := rfl
/-- The destination column of the third aggregation is that of the first. -/
theorem dst3 : Read.val_main_v77 (F := Ideal) x1 = Read.val_main_v25 (F := Ideal) x1 := rfl
/-- The source column of the third aggregation is that of the first. -/
theorem src3 : Read.val_main_v74 (F := Ideal) x1 = Read.val_main_v22 (F := Ideal) x1 := rfl

/-- The third layer's aggregate is the aggregation of the second layer's rectified output. -/
theorem agg_stage3 :
    Read.val_main_v78 (F := Ideal) x0 x1 x2 x3 x4 x5 x6
      = aggR x1 (Read.val_main_v68 (F := Ideal) x0 x1 x2 x3 x4 x5 x6) := by
  unfold Read.val_main_v78 Read.val_main_v75 aggR
  rw [zeros3, dst3, src3]

/-! ## Layer 1 -/

/-- The layer's self term at (p, q): row p of the layer's input against column q of the self weights. -/
theorem self_stage1 (p : Fin 200000) (q : Fin 128) :
    Read.val_main_v32 (F := Ideal) x0 x2 x3 x4 (ix2 p q)
      = SageLayer.rowDot (Read.val_main_v4 (F := Ideal) x0 x2 x3) (Read.val_main_v31 (F := Ideal) x4) p q := by
  rw [Read.val_main_v32_apply]
  unfold SageLayer.rowDot
  refine Finset.sum_congr rfl fun k _ => ?_
  rw [show Read.lidx_main_v32 (ix2 p q) k = ix2 p k from ix2_of_val _ _ _ rfl rfl,
    show Read.ridx_main_v32 (ix2 p q) k = ix2 k q from ix2_of_val _ _ _ rfl rfl]

/-- The layer's scaled aggregate at (p, k): the aggregate's entry times the scale of row p. -/
theorem scaled_stage1 (p : Fin 200000) (k : Fin 128) :
    Read.val_main_v29 (F := Ideal) x0 x1 x2 x3 (ix2 p k)
      = Read.val_main_v26 (F := Ideal) x0 x1 x2 x3 (ix2 p k) * Read.val_main_v16 (F := Ideal) x1 (ix1 p) := by
  rw [Read.val_main_v29_apply, Read.val_main_v28_apply, Read.val_main_v27_apply, Ideal.mulf_def,
    show Read.idx_main_v27 (Read.idx_main_v28 (ix2 p k)) = ix1 p from ix1_of_val _ _ rfl]

/-- The layer's neighbour term at (p, q): row p of the scaled aggregate against column q of the neighbour weights. -/
theorem neigh_stage1 (p : Fin 200000) (q : Fin 128) :
    Read.val_main_v35 (F := Ideal) x0 x1 x2 x3 x5 (ix2 p q)
      = SageLayer.scaledRowDot (Read.val_main_v26 (F := Ideal) x0 x1 x2 x3) (Read.val_main_v16 (F := Ideal) x1 (ix1 p))
          (Read.val_main_v34 (F := Ideal) x5) p q := by
  rw [Read.val_main_v35_apply]
  unfold SageLayer.scaledRowDot
  refine Finset.sum_congr rfl fun k _ => ?_
  rw [show Read.lidx_main_v35 (ix2 p q) k = ix2 p k from ix2_of_val _ _ _ rfl rfl,
    show Read.ridx_main_v35 (ix2 p q) k = ix2 k q from ix2_of_val _ _ _ rfl rfl, scaled_stage1]

/-- The layer's broadcast bias at (p, q) is the bias entry q. -/
theorem bias_stage1 (p : Fin 200000) (q : Fin 128) :
    Read.val_main_v40 (F := Ideal) x6 (ix2 p q) = Read.val_main_v38 (F := Ideal) x6 (ix1 q) := by
  rw [Read.val_main_v40_apply, Read.val_main_v39_apply,
    show Read.idx_main_v39 (Read.idx_main_v40 (ix2 p q)) = ix1 q from ix1_of_val _ _ rfl]

/-- The layer before its rectifier is the combination of its input and its aggregate. -/
theorem combine_stage1 :
    Read.val_main_v41 (F := Ideal) x0 x1 x2 x3 x4 x5 x6
      = SageLayer.combine (Read.val_main_v4 (F := Ideal) x0 x2 x3) (Read.val_main_v26 (F := Ideal) x0 x1 x2 x3)
          (Read.val_main_v16 (F := Ideal) x1) (Read.val_main_v31 (F := Ideal) x4) (Read.val_main_v34 (F := Ideal) x5)
          (Read.val_main_v38 (F := Ideal) x6) := by
  funext i
  obtain ⟨p, q, rfl⟩ : ∃ (p : Fin 200000) (q : Fin 128), i = ix2 p q := ⟨i 0, i 1, eq_ix2 i⟩
  rw [Read.val_main_v41_apply, Read.val_main_v36_apply, self_stage1, neigh_stage1, bias_stage1,
    Ideal.addf_def, Ideal.addf_def, SageLayer.combine_ix2]
  rfl

/-- The layer's rectifier is the entrywise maximum with the zero word. -/
theorem rectify_stage1 :
    Read.val_main_v42 (F := Ideal) x0 x1 x2 x3 x4 x5 x6
      = SageLayer.rectify (Ideal.ofBits .f32 0x00000000#32) (Read.val_main_v41 (F := Ideal) x0 x1 x2 x3 x4 x5 x6) := by
  funext i
  rw [Read.val_main_v42_apply, Read.val_main_call0_v0_apply, Read.val_main_call0_cst_apply, Ideal.maximumf_def]
  rfl

/-! ## Layer 2 -/

/-- The layer's self term at (p, q): row p of the layer's input against column q of the self weights. -/
theorem self_stage2 (p : Fin 200000) (q : Fin 128) :
    Read.val_main_v58 (F := Ideal) x0 x1 x2 x3 x4 x5 x6 (ix2 p q)
      = SageLayer.rowDot (Read.val_main_v42 (F := Ideal) x0 x1 x2 x3 x4 x5 x6) (Read.val_main_v57 (F := Ideal) x4) p q := by
  rw [Read.val_main_v58_apply]
  unfold SageLayer.rowDot
  refine Finset.sum_congr rfl fun k _ => ?_
  rw [show Read.lidx_main_v58 (ix2 p q) k = ix2 p k from ix2_of_val _ _ _ rfl rfl,
    show Read.ridx_main_v58 (ix2 p q) k = ix2 k q from ix2_of_val _ _ _ rfl rfl]

/-- The layer's scaled aggregate at (p, k): the aggregate's entry times the scale of row p. -/
theorem scaled_stage2 (p : Fin 200000) (k : Fin 128) :
    Read.val_main_v55 (F := Ideal) x0 x1 x2 x3 x4 x5 x6 (ix2 p k)
      = Read.val_main_v52 (F := Ideal) x0 x1 x2 x3 x4 x5 x6 (ix2 p k) * Read.val_main_v16 (F := Ideal) x1 (ix1 p) := by
  rw [Read.val_main_v55_apply, Read.val_main_v54_apply, Read.val_main_v53_apply, Ideal.mulf_def,
    show Read.idx_main_v53 (Read.idx_main_v54 (ix2 p k)) = ix1 p from ix1_of_val _ _ rfl]

/-- The layer's neighbour term at (p, q): row p of the scaled aggregate against column q of the neighbour weights. -/
theorem neigh_stage2 (p : Fin 200000) (q : Fin 128) :
    Read.val_main_v61 (F := Ideal) x0 x1 x2 x3 x4 x5 x6 (ix2 p q)
      = SageLayer.scaledRowDot (Read.val_main_v52 (F := Ideal) x0 x1 x2 x3 x4 x5 x6) (Read.val_main_v16 (F := Ideal) x1 (ix1 p))
          (Read.val_main_v60 (F := Ideal) x5) p q := by
  rw [Read.val_main_v61_apply]
  unfold SageLayer.scaledRowDot
  refine Finset.sum_congr rfl fun k _ => ?_
  rw [show Read.lidx_main_v61 (ix2 p q) k = ix2 p k from ix2_of_val _ _ _ rfl rfl,
    show Read.ridx_main_v61 (ix2 p q) k = ix2 k q from ix2_of_val _ _ _ rfl rfl, scaled_stage2]

/-- The layer's broadcast bias at (p, q) is the bias entry q. -/
theorem bias_stage2 (p : Fin 200000) (q : Fin 128) :
    Read.val_main_v66 (F := Ideal) x6 (ix2 p q) = Read.val_main_v64 (F := Ideal) x6 (ix1 q) := by
  rw [Read.val_main_v66_apply, Read.val_main_v65_apply,
    show Read.idx_main_v65 (Read.idx_main_v66 (ix2 p q)) = ix1 q from ix1_of_val _ _ rfl]

/-- The layer before its rectifier is the combination of its input and its aggregate. -/
theorem combine_stage2 :
    Read.val_main_v67 (F := Ideal) x0 x1 x2 x3 x4 x5 x6
      = SageLayer.combine (Read.val_main_v42 (F := Ideal) x0 x1 x2 x3 x4 x5 x6) (Read.val_main_v52 (F := Ideal) x0 x1 x2 x3 x4 x5 x6)
          (Read.val_main_v16 (F := Ideal) x1) (Read.val_main_v57 (F := Ideal) x4) (Read.val_main_v60 (F := Ideal) x5)
          (Read.val_main_v64 (F := Ideal) x6) := by
  funext i
  obtain ⟨p, q, rfl⟩ : ∃ (p : Fin 200000) (q : Fin 128), i = ix2 p q := ⟨i 0, i 1, eq_ix2 i⟩
  rw [Read.val_main_v67_apply, Read.val_main_v62_apply, self_stage2, neigh_stage2, bias_stage2,
    Ideal.addf_def, Ideal.addf_def, SageLayer.combine_ix2]
  rfl

/-- The layer's rectifier is the entrywise maximum with the zero word. -/
theorem rectify_stage2 :
    Read.val_main_v68 (F := Ideal) x0 x1 x2 x3 x4 x5 x6
      = SageLayer.rectify (Ideal.ofBits .f32 0x00000000#32) (Read.val_main_v67 (F := Ideal) x0 x1 x2 x3 x4 x5 x6) := by
  funext i
  rw [Read.val_main_v68_apply, Read.val_main_call1_v0_apply, Read.val_main_call1_cst_apply, Ideal.maximumf_def]
  rfl

/-! ## Layer 3 -/

/-- The layer's self term at (p, q): row p of the layer's input against column q of the self weights. -/
theorem self_stage3 (p : Fin 200000) (q : Fin 128) :
    Read.val_main_v84 (F := Ideal) x0 x1 x2 x3 x4 x5 x6 (ix2 p q)
      = SageLayer.rowDot (Read.val_main_v68 (F := Ideal) x0 x1 x2 x3 x4 x5 x6) (Read.val_main_v83 (F := Ideal) x4) p q := by
  rw [Read.val_main_v84_apply]
  unfold SageLayer.rowDot
  refine Finset.sum_congr rfl fun k _ => ?_
  rw [show Read.lidx_main_v84 (ix2 p q) k = ix2 p k from ix2_of_val _ _ _ rfl rfl,
    show Read.ridx_main_v84 (ix2 p q) k = ix2 k q from ix2_of_val _ _ _ rfl rfl]

/-- The layer's scaled aggregate at (p, k): the aggregate's entry times the scale of row p. -/
theorem scaled_stage3 (p : Fin 200000) (k : Fin 128) :
    Read.val_main_v81 (F := Ideal) x0 x1 x2 x3 x4 x5 x6 (ix2 p k)
      = Read.val_main_v78 (F := Ideal) x0 x1 x2 x3 x4 x5 x6 (ix2 p k) * Read.val_main_v16 (F := Ideal) x1 (ix1 p) := by
  rw [Read.val_main_v81_apply, Read.val_main_v80_apply, Read.val_main_v79_apply, Ideal.mulf_def,
    show Read.idx_main_v79 (Read.idx_main_v80 (ix2 p k)) = ix1 p from ix1_of_val _ _ rfl]

/-- The layer's neighbour term at (p, q): row p of the scaled aggregate against column q of the neighbour weights. -/
theorem neigh_stage3 (p : Fin 200000) (q : Fin 128) :
    Read.val_main_v87 (F := Ideal) x0 x1 x2 x3 x4 x5 x6 (ix2 p q)
      = SageLayer.scaledRowDot (Read.val_main_v78 (F := Ideal) x0 x1 x2 x3 x4 x5 x6) (Read.val_main_v16 (F := Ideal) x1 (ix1 p))
          (Read.val_main_v86 (F := Ideal) x5) p q := by
  rw [Read.val_main_v87_apply]
  unfold SageLayer.scaledRowDot
  refine Finset.sum_congr rfl fun k _ => ?_
  rw [show Read.lidx_main_v87 (ix2 p q) k = ix2 p k from ix2_of_val _ _ _ rfl rfl,
    show Read.ridx_main_v87 (ix2 p q) k = ix2 k q from ix2_of_val _ _ _ rfl rfl, scaled_stage3]

/-- The layer's broadcast bias at (p, q) is the bias entry q. -/
theorem bias_stage3 (p : Fin 200000) (q : Fin 128) :
    Read.val_main_v92 (F := Ideal) x6 (ix2 p q) = Read.val_main_v90 (F := Ideal) x6 (ix1 q) := by
  rw [Read.val_main_v92_apply, Read.val_main_v91_apply,
    show Read.idx_main_v91 (Read.idx_main_v92 (ix2 p q)) = ix1 q from ix1_of_val _ _ rfl]

/-- The layer before its rectifier is the combination of its input and its aggregate. -/
theorem combine_stage3 :
    Read.val_main_v93 (F := Ideal) x0 x1 x2 x3 x4 x5 x6
      = SageLayer.combine (Read.val_main_v68 (F := Ideal) x0 x1 x2 x3 x4 x5 x6) (Read.val_main_v78 (F := Ideal) x0 x1 x2 x3 x4 x5 x6)
          (Read.val_main_v16 (F := Ideal) x1) (Read.val_main_v83 (F := Ideal) x4) (Read.val_main_v86 (F := Ideal) x5)
          (Read.val_main_v90 (F := Ideal) x6) := by
  funext i
  obtain ⟨p, q, rfl⟩ : ∃ (p : Fin 200000) (q : Fin 128), i = ix2 p q := ⟨i 0, i 1, eq_ix2 i⟩
  rw [Read.val_main_v93_apply, Read.val_main_v88_apply, self_stage3, neigh_stage3, bias_stage3,
    Ideal.addf_def, Ideal.addf_def, SageLayer.combine_ix2]
  rfl

/-! ## The whole network -/

/-- The reference's result is the three-layer network over the aggregation `aggR x1`, the per-row scale and the
    weight and bias slices the program reads from its arguments. -/
theorem result_eq (x0 : (⟨S200000x117, .f32⟩ : BufTy).Contents (Elt Ideal))
    (x1 : (⟨S2x600000, .i32⟩ : BufTy).Contents (Elt Ideal)) (x2 : (⟨S117x128, .f32⟩ : BufTy).Contents (Elt Ideal))
    (x3 : (⟨S128, .f32⟩ : BufTy).Contents (Elt Ideal)) (x4 x5 : (⟨S3x128x128, .f32⟩ : BufTy).Contents (Elt Ideal))
    (x6 : (⟨S3x128, .f32⟩ : BufTy).Contents (Elt Ideal)) :
    Read.val_main_v93 (F := Ideal) x0 x1 x2 x3 x4 x5 x6
      = SageLayer.net3 (aggR x1) (Ideal.ofBits .f32 0x00000000#32) x0 x2 x3 (Read.val_main_v16 (F := Ideal) x1)
          (Read.val_main_v31 (F := Ideal) x4) (Read.val_main_v34 (F := Ideal) x5) (Read.val_main_v38 (F := Ideal) x6)
          (Read.val_main_v57 (F := Ideal) x4) (Read.val_main_v60 (F := Ideal) x5) (Read.val_main_v64 (F := Ideal) x6)
          (Read.val_main_v83 (F := Ideal) x4) (Read.val_main_v86 (F := Ideal) x5) (Read.val_main_v90 (F := Ideal) x6) := by
  rw [combine_stage3, agg_stage3, rectify_stage2, combine_stage2, agg_stage2, rectify_stage1, combine_stage1, agg_stage1,
    proj_stage]
  rfl

end Cert.ReferenceIdeal.RefValue

end
-- ==== Proof.Bridge.lean ====
/-
  The kernel's host-side functions are the reference's stages: both programs slice the same rows of the edge table,
  wrap and broadcast them the same way, gather and scatter-add with the same dimension records, count degrees the same
  way and cut the same slabs out of the stacked weights and biases. Each equation holds by unfolding the names.
-/
import proofs.«170630_j57097295233646_2_alg».proof.Proof.KernelHost
import proofs.«170630_j57097295233646_2_alg».proof.Proof.RefStages

noncomputable section

namespace Cert.Bridge

open Idealize.ShloMosaic
open Cert.KernelIdeal.HostFns Cert.ReferenceIdeal.RefValue Cert.ReferenceIdeal

variable (x1 : (⟨Cert.KernelIdeal.S2x600000, .i32⟩ : BufTy).Contents (Elt Ideal))
variable (x4 x5 : FVec Ideal Cert.KernelIdeal.S3x128x128 .f32) (x6 : FVec Ideal Cert.KernelIdeal.S3x128 .f32)

theorem agg_eq : agg (srcRow x1) (dstRow x1) = aggR x1 := rfl

theorem inv_eq : inv (dstRow x1) = Read.val_main_v16 (F := Ideal) x1 := rfl

theorem mat0_self : mat0 x4 = Read.val_main_v31 (F := Ideal) x4 := rfl
theorem mat0_neigh : mat0 x5 = Read.val_main_v34 (F := Ideal) x5 := rfl
theorem vec0_eq : vec0 x6 = Read.val_main_v38 (F := Ideal) x6 := rfl
theorem mat1_self : mat1 x4 = Read.val_main_v57 (F := Ideal) x4 := rfl
theorem mat1_neigh : mat1 x5 = Read.val_main_v60 (F := Ideal) x5 := rfl
theorem vec1_eq : vec1 x6 = Read.val_main_v64 (F := Ideal) x6 := rfl
theorem mat2_self : mat2 x4 = Read.val_main_v83 (F := Ideal) x4 := rfl
theorem mat2_neigh : mat2 x5 = Read.val_main_v86 (F := Ideal) x5 := rfl
theorem vec2_eq : vec2 x6 = Read.val_main_v90 (F := Ideal) x6 := rfl

end Cert.Bridge

end
-- ==== Proof.lean ====
/-
  The kernel computes a three-layer mean-aggregating graph network in four row-tiled regions: a dense projection
  h = tanh(x·W_in + b_in) over the feature matrix padded to 128 contracted positions, then three times
  h ← h·W_self[i] + (agg(h)·inv_deg)·W_neigh[i] + b[i] (rectified after the first two), where agg gathers the source
  rows of h and adds them onto their target rows and inv_deg = 1 / max(in-degree, 1); the gather, the scatter-add and
  the degree count run on the host between the regions. The reference computes the same network on whole arrays.

  At the exact instance the two agree entry by entry: a padded contraction position contributes 0·w = 0; each region's
  25 row blocks are the blocks of the layer stated on the whole arrays, because an entry (p, q) of a layer depends on
  its left operands only through row p; the host operations between the regions are the reference's own. The frames of
  the two kernel programs are the generated ones, the reference's frame is its generated run with the result dropped,
  and the ideal pass rewrote nothing.
-/
import proofs.«170630_j57097295233646_2_alg».proof.Defs
import proofs.«170630_j57097295233646_2_alg».proof.Proof.Gen.Kernel
import proofs.«170630_j57097295233646_2_alg».proof.Proof.Gen.Kernel.Skeleton
import proofs.«170630_j57097295233646_2_alg».proof.Proof.Gen.Kernel.Launch
import proofs.«170630_j57097295233646_2_alg».proof.Proof.Gen.Kernel.Points
import proofs.«170630_j57097295233646_2_alg».proof.Proof.Gen.Kernel.Frame
import proofs.«170630_j57097295233646_2_alg».proof.Proof.Gen.KernelIdeal
import proofs.«170630_j57097295233646_2_alg».proof.Proof.Gen.KernelIdeal.Skeleton
import proofs.«170630_j57097295233646_2_alg».proof.Proof.Gen.KernelIdeal.Launch
import proofs.«170630_j57097295233646_2_alg».proof.Proof.Gen.KernelIdeal.Points
import proofs.«170630_j57097295233646_2_alg».proof.Proof.Gen.KernelIdeal.Frame
import proofs.«170630_j57097295233646_2_alg».proof.Proof.Gen.ReferenceIdeal
import proofs.«170630_j57097295233646_2_alg».proof.Proof.Gen.ReferenceIdeal.Run
import proofs.«170630_j57097295233646_2_alg».proof.Proof.Gen.ReferenceIdeal.Read
import proofs.«170630_j57097295233646_2_alg».proof.Proof.Gen.Pre_finite_inputs
import proofs.«170630_j57097295233646_2_alg».proof.Proof.KernelRun
import proofs.«170630_j57097295233646_2_alg».proof.Proof.KernelValue
import proofs.«170630_j57097295233646_2_alg».proof.Proof.RefStages
import proofs.«170630_j57097295233646_2_alg».proof.Proof.Bridge
import Idealize.ShloMosaic.Adequacy
import Idealize.ShloMosaic.Init

noncomputable section

namespace Cert.Proof

open Idealize.ShloMosaic Idealize.ShloMosaic.TcCoe Idealize.SL.Sem
open Cert.KernelIdeal.HostFns

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the network of the (agreeing) arguments in their result arrays. -/
theorem algebraic : Cert.algebraic_KernelIdeal_ReferenceIdeal := by
  intro m ρ m' ρ' _ hagree
  refine ⟨fun c => SageLayer.net3 (agg (srcRow (m ((c.tc : Thread Cert.KernelIdeal.nD Cert.KernelIdeal.τ).loc Cert.KernelIdeal.main_arg1))) (dstRow (m ((c.tc : Thread Cert.KernelIdeal.nD Cert.KernelIdeal.τ).loc Cert.KernelIdeal.main_arg1)))) (Ideal.ofBits .f32 0x00000000#32)
      (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (inv (dstRow (m ((c.tc : Thread Cert.KernelIdeal.nD Cert.KernelIdeal.τ).loc Cert.KernelIdeal.main_arg1))))
      (mat0 (m ((c.tc : Thread Cert.KernelIdeal.nD Cert.KernelIdeal.τ).loc Cert.KernelIdeal.main_arg4))) (mat0 (m ((c.tc : Thread Cert.KernelIdeal.nD Cert.KernelIdeal.τ).loc Cert.KernelIdeal.main_arg5))) (vec0 (m ((c.tc : Thread Cert.KernelIdeal.nD Cert.KernelIdeal.τ).loc Cert.KernelIdeal.main_arg6)))
      (mat1 (m ((c.tc : Thread Cert.KernelIdeal.nD Cert.KernelIdeal.τ).loc Cert.KernelIdeal.main_arg4))) (mat1 (m ((c.tc : Thread Cert.KernelIdeal.nD Cert.KernelIdeal.τ).loc Cert.KernelIdeal.main_arg5))) (vec1 (m ((c.tc : Thread Cert.KernelIdeal.nD Cert.KernelIdeal.τ).loc Cert.KernelIdeal.main_arg6)))
      (mat2 (m ((c.tc : Thread Cert.KernelIdeal.nD Cert.KernelIdeal.τ).loc Cert.KernelIdeal.main_arg4))) (mat2 (m ((c.tc : Thread Cert.KernelIdeal.nD Cert.KernelIdeal.τ).loc Cert.KernelIdeal.main_arg5))) (vec2 (m ((c.tc : Thread Cert.KernelIdeal.nD Cert.KernelIdeal.τ).loc Cert.KernelIdeal.main_arg6))), ?_, ?_⟩
  · exact (θ_run Cert.KernelIdeal.defs _ _).mono
      (fun r h c => ⟨(h c).1.trans (Cert.KernelIdeal.Fold.result m ρ c), (h c).2⟩)
      (Cert.KernelIdeal.Named.run_named m ρ)
  · refine (θ_run Cert.ReferenceIdeal.defs _ _).mono (fun _ h c => ⟨(h c).1.trans ?_, (h c).2⟩)
      (Cert.ReferenceIdeal.Value.run (F := Ideal) m' ρ')
    obtain ⟨a0, a1, a2, a3, a4, a5, a6⟩ := hagree c
    rw [Cert.ReferenceIdeal.Read.val_main_v93_eq, a0, a1, a2, a3, a4, a5, a6, Cert.ReferenceIdeal.RefValue.result_eq,
      ← Cert.Bridge.agg_eq, ← Cert.Bridge.inv_eq, ← Cert.Bridge.mat0_self, ← Cert.Bridge.mat0_neigh, ← Cert.Bridge.vec0_eq,
      ← Cert.Bridge.mat1_self, ← Cert.Bridge.mat1_neigh, ← Cert.Bridge.vec1_eq, ← Cert.Bridge.mat2_self,
      ← Cert.Bridge.mat2_neigh, ← Cert.Bridge.vec2_eq]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
